-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S32x16 .f32) (main_arg7 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x32 .f32) (main_arg1 : IVec S1600000 32) (main_arg2 : IVec S1600000 32) (main_arg3 : FVec F S1600000 .f32) (main_arg4 : FVec F S32x32 .f32) (main_arg5 : FVec F S32 .f32) (main_arg6 : FVec F S32x16 .f32) (main_arg7 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x32 : Shape := ⟨2, ![5000, 32]⟩
abbrev S5000x1 : Shape := ⟨2, ![5000, 1]⟩
abbrev S1600000x32 : Shape := ⟨2, ![1600000, 32]⟩
abbrev S1x32 : Shape := ⟨2, ![1, 32]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩

abbrev nBuf : Space → Nat
  | .hbm => 71
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S1600000x1, .f32⟩
  | .hbm, ⟨45, _⟩ => ⟨S1600000x32, .f32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | .hbm, ⟨51, _⟩ => ⟨S1x32, .f32⟩
  | .hbm, ⟨52, _⟩ => ⟨S100000x16, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x16, .f32⟩
  | .hbm, ⟨62, _⟩ => ⟨S1600000x1, .f32⟩
  | .hbm, ⟨63, _⟩ => ⟨S1600000x16, .f32⟩
  | .hbm, ⟨64, _⟩ => ⟨S1600000x16, .f32⟩
  | .hbm, ⟨65, _⟩ => ⟨S_, .f32⟩
  | .hbm, ⟨66, _⟩ => ⟨S100000x16, .f32⟩
  | .hbm, ⟨67, _⟩ => ⟨S1600000x1, .i32⟩
  | .hbm, ⟨68, _⟩ => ⟨S100000x16, .f32⟩
  | .hbm, ⟨69, _⟩ => ⟨S1x16, .f32⟩
  | .hbm, ⟨70, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S32x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x1, .f32⟩
  | .local _ .vmem, ⟨13, _⟩ => ⟨S5000x1, .f32⟩
  | .local _ .vmem, ⟨14, _⟩ => ⟨S32x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x1, .f32⟩
  | .local _ .vmem, ⟨20, _⟩ => ⟨S5000x1, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1600000x1_S1600000_n_0_0_1_wf : ScatterDims.WF S100000 S1600000x1 S1600000 [] [0] [0] 1
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 87
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x32, .f32⟩
  | .hbm, ⟨34, _⟩ => ⟨S100000x32, .f32⟩
  | .hbm, ⟨35, _⟩ => ⟨S100000x32, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S1600000x1, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S100000x1, .f32⟩
  | .hbm, ⟨53, _⟩ => ⟨S100000x32, .f32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S100000x32, .f32⟩
  | .hbm, ⟨58, _⟩ => ⟨S_, .f32⟩
  | .hbm, ⟨59, _⟩ => ⟨S100000x32, .f32⟩
  | .hbm, ⟨60, _⟩ => ⟨S100000x32, .f32⟩
  | .hbm, ⟨61, _⟩ => ⟨S100000x1, .f32⟩
  | .hbm, ⟨62, _⟩ => ⟨S100000x32, .f32⟩
  | .hbm, ⟨63, _⟩ => ⟨S100000x32, .f32⟩
  | .hbm, ⟨64, _⟩ => ⟨S100000x16, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x16, .f32⟩
  | .hbm, ⟨74, _⟩ => ⟨S1600000x1, .f32⟩
  | .hbm, ⟨75, _⟩ => ⟨S1600000x16, .f32⟩
  | .hbm, ⟨76, _⟩ => ⟨S1600000x16, .f32⟩
  | .hbm, ⟨77, _⟩ => ⟨S_, .f32⟩
  | .hbm, ⟨78, _⟩ => ⟨S100000x16, .f32⟩
  | .hbm, ⟨79, _⟩ => ⟨S1600000x1, .i32⟩
  | .hbm, ⟨80, _⟩ => ⟨S100000x16, .f32⟩
  | .hbm, ⟨81, _⟩ => ⟨S100000x1, .f32⟩
  | .hbm, ⟨82, _⟩ => ⟨S100000x16, .f32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call2_cst : Ref sig .tc := ⟨.hbm, 58, rfl⟩
abbrev main_call2_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KernelRun.lean ====
/-
  The run of the idealized kernel program with its RESULT named.

  The program is three grid regions among stretches of host operations.  Its frame theorem follows the contents of
  every unscoped buffer from the launch through each stretch and each region, down to the last boundary's contents
  `W10`; it then keeps only the eight argument arrays.  Here the same run keeps one buffer more: the result array
  `main_v45`, which every final state holds at `W10`'s value for it.
-/
import proofs.«171198_j12876311953783_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the eight argument arrays as launched. -/
theorem run : θ_run defs (onTc (τ := τ) (main (F := F))) ⟨m, fun _ => 0, ρ⟩ (fun r => ∀ c : Dev nD,
      r.2.mem ((c.tc : Thread nD τ).loc main_v45) = W10 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v45 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.Spec.lean ====
/-
  The dense, node-indexed pieces of a two-layer graph convolution, as whole-array functions on the extended reals.

  With `N = 100000` nodes, the network is
      out = A(  relu( A( (X·diag(s))·W₁ )·diag(t) + b₁ ) · diag(s) · W₂ ) · diag(t) + b₂ ,
  where `A` is the (sparse) edge aggregation, `s` and `t` the out- and in-degree normalisations as `[N, 1]` columns
  and the biases `[1, d]` rows.  Between two aggregations everything is row-local; this file names those row-local
  pieces, entry by entry:

  * `scaleThenProduct x s w` : entry `(p, c)` is `∑ₖ (x(p,k) · s(p,0)) · w(k,c)`  — rows scaled, then a matrix product;
  * `scaleAddBias a s b`     : entry `(p, c)` is `a(p,c) · s(p,0) + b(0,c)`;
  * `hidden a s b`           : `max (scaleAddBias a s b) 0`, the rectified hidden layer;
  * `column n`, `row b`      : a vector laid out as an `[N, 1]` column, respectively a `[1, d]` row.
-/
import Idealize.ShloMosaic.PureOps.Ideal
import Idealize.ShloMosaic.Lib.ValueIdx

noncomputable section

namespace Cert.GcnSpec

open Idealize.ShloMosaic Idealize.ShloMosaic.ValueIdx

/-- Rows of `x` scaled by the column `s`, then multiplied by `w`: entry `(p, c)` is `∑ₖ (x(p,k) · s(p,0)) · w(k,c)`. -/
def scaleThenProduct {d : ℕ} (x : FVec Ideal ⟨2, ![100000, 32]⟩ .f32) (s : FVec Ideal ⟨2, ![100000, 1]⟩ .f32)
    (w : FVec Ideal ⟨2, ![32, d]⟩ .f32) : FVec Ideal ⟨2, ![100000, d]⟩ .f32 :=
  fun i => ∑ k : Fin 32, (x (ix2 (i 0) k) * s (ix2 (i 0) (0 : Fin 1))) * w (ix2 k (i 1))

/-- Rows of `a` scaled by the column `s`, plus the row `b`: entry `(p, c)` is `a(p,c) · s(p,0) + b(0,c)`. -/
def scaleAddBias {d : ℕ} (a : FVec Ideal ⟨2, ![100000, d]⟩ .f32) (s : FVec Ideal ⟨2, ![100000, 1]⟩ .f32)
    (b : FVec Ideal ⟨2, ![1, d]⟩ .f32) : FVec Ideal ⟨2, ![100000, d]⟩ .f32 :=
  fun i => a i * s (ix2 (i 0) (0 : Fin 1)) + b (ix2 (0 : Fin 1) (i 1))

/-- The rectified hidden layer: `max (a(p,c) · s(p,0) + b(0,c)) 0`. -/
def hidden (a : FVec Ideal ⟨2, ![100000, 32]⟩ .f32) (s : FVec Ideal ⟨2, ![100000, 1]⟩ .f32)
    (b : FVec Ideal ⟨2, ![1, 32]⟩ .f32) : FVec Ideal ⟨2, ![100000, 32]⟩ .f32 :=
  fun i => max (scaleAddBias a s b i) (Ideal.ofBits .f32 0x00000000#32)

/-- A vector of node values as an `[N, 1]` column. -/
def column (n : FVec Ideal ⟨1, ![100000]⟩ .f32) : FVec Ideal ⟨2, ![100000, 1]⟩ .f32 :=
  fun i => n (ix1 (i 0))

/-- A vector of `d` values as a `[1, d]` row. -/
def row {d : ℕ} (b : FVec Ideal ⟨1, ![d]⟩ .f32) : FVec Ideal ⟨2, ![1, d]⟩ .f32 :=
  fun i => b (ix1 (i 1))

end Cert.GcnSpec

end
-- ==== Proof.Graph.lean ====
/-
  The whole two-layer graph convolution as ONE function of its eight arguments, on the extended reals.

  `degreeNorm idx`   : per node, (max 1 (number of edges whose endpoint `idx` is that node)) ^ (-1/2);
  `aggregate h src dst ew` : per node `v`, the sum over the edges `e` with `dst e = v` of `h(src e, ·) · ew e`
                       (a gather of rows, an edge weighting, a scatter-add), in widths 32 and 16;
  `network`          : out = A( relu( A( (X·diag s)·W₁ )·diag t + b₁ )·diag s·W₂ )·diag t + b₂
                       with `s = degreeNorm src`, `t = degreeNorm dst` and `A = aggregate · src dst ew`.
  The sparse steps are kept as the host operations that compute them; nothing here opens them.
-/
import proofs.«171198_j12876311953783_1_alg».proof.Proof.Gen.KernelIdeal
import proofs.«171198_j12876311953783_1_alg».proof.Proof.Spec

noncomputable section

namespace Cert.GcnSpec

open Idealize.ShloMosaic Idealize.ShloMosaic.TcCoe
open Cert.KernelIdeal Cert.KernelIdeal.Gen

/-- An edge-endpoint list as the signed row indices a gather reads: a negative index counts from the end. -/
def wrapIndex (idx : (⟨S1600000, .i32⟩ : BufTy).Contents (Elt Ideal)) : (⟨S1600000x1, .i32⟩ : BufTy).Contents (Elt Ideal) :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- `(max 1 (degree))^(-1/2)` per node, the degree counted by a scatter-add of ones along `idx`. -/
def degreeNorm (idx : (⟨S1600000, .i32⟩ : BufTy).Contents (Elt Ideal)) : FVec Ideal S100000 .f32 :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- The weighted edge aggregation of 32-wide rows. -/
def aggregate32 (h : FVec Ideal S100000x32 .f32) (src dst : (⟨S1600000, .i32⟩ : BufTy).Contents (Elt Ideal))
    (ew : FVec Ideal S1600000 .f32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (mulf (Host.gather gather_S100000x32_S1600000x1_S1600000x32_1_0_n_n_0_1_132 h (wrapIndex src))
      (broadcastInDim S1600000x32 ![0, 1] bcast_S1600000x1_S1600000x32_0_1
        (broadcastInDim S1600000x1 ![0] bcast_S1600000_S1600000x1_0 ew)))

/-- The weighted edge aggregation of 16-wide rows. -/
def aggregate16 (h : FVec Ideal S100000x16 .f32) (src dst : (⟨S1600000, .i32⟩ : BufTy).Contents (Elt Ideal))
    (ew : FVec Ideal S1600000 .f32) : FVec Ideal S100000x16 .f32 :=
  Host.scatterAdd (F := Ideal) scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (mulf (Host.gather gather_S100000x16_S1600000x1_S1600000x16_1_0_n_n_0_1_116 h (wrapIndex src))
      (broadcastInDim S1600000x16 ![0, 1] bcast_S1600000x1_S1600000x16_0_1
        (broadcastInDim S1600000x1 ![0] bcast_S1600000_S1600000x1_0 ew)))

/-- The two-layer network, given the two normalisation columns and the two bias rows already laid out. -/
def layers (x : FVec Ideal S100000x32 .f32) (src dst : (⟨S1600000, .i32⟩ : BufTy).Contents (Elt Ideal))
    (ew : FVec Ideal S1600000 .f32) (w1 : FVec Ideal S32x32 .f32) (w2 : FVec Ideal S32x16 .f32)
    (s t : FVec Ideal S100000x1 .f32) (b1 : FVec Ideal S1x32 .f32) (b2 : FVec Ideal S1x16 .f32) : FVec Ideal S100000x16 .f32 :=
  scaleAddBias
    (aggregate16 (scaleThenProduct (hidden (aggregate32 (scaleThenProduct x s w1) src dst ew) t b1) s w2) src dst ew)
    t b2

/-- The two-layer graph convolution of the eight arguments. -/
def network (x : FVec Ideal S100000x32 .f32) (src dst : (⟨S1600000, .i32⟩ : BufTy).Contents (Elt Ideal))
    (ew : FVec Ideal S1600000 .f32) (w1 : FVec Ideal S32x32 .f32) (b1 : FVec Ideal S32 .f32)
    (w2 : FVec Ideal S32x16 .f32) (b2 : FVec Ideal S16 .f32) : FVec Ideal S100000x16 .f32 :=
  layers x src dst ew w1 w2 (column (degreeNorm src)) (column (degreeNorm dst)) (row b1) (row b2)

end Cert.GcnSpec

end
-- ==== Proof.Degrees.lean ====
/-
  The buffers the first grid region is entered with.

  Before the first region the program counts, by two scatter-adds of ones, how many edges leave and enter each node,
  clips the counts below at 1, raises them to the power -1/2 and lays each result out as an `[N, 1]` column.  Each of
  the five stretches of host operations is read back from ANY starting contents `W`, so that every array a stretch
  only reads stays a plain name; chained, the two columns are `degreeNorm` of the two edge-endpoint arrays,
  reshaped, and the eight argument arrays are untouched.  At the launch contents this gives what the first region
  finds.  `sourceColumn`, `targetColumn` and the two bias rows name these layouts once, for every later stage.
-/
import proofs.«171198_j12876311953783_1_alg».proof.Proof.Gen.KernelIdeal.Frame
import proofs.«171198_j12876311953783_1_alg».proof.Proof.Graph
import Idealize.ShloMosaic.Lib.StableHlo.Run

noncomputable section

namespace Cert.KernelIdeal.Chain

open Idealize.ShloMosaic Idealize.ShloMosaic.TcCoe Idealize.ShloMosaic.StableHlo Idealize.SL.Sem
open Cert.KernelIdeal Cert.KernelIdeal.Gen Cert.GcnSpec

variable (m : (ℓ : Loc nD τ sig) → Buf (Elt Ideal) ℓ) (ρ : Dev nD → PrngReg) (c : Dev nD)

section Stretches
variable (W : Valuation τ sig (Elt Ideal))

/-! ### Counting the edges that leave each node -/

theorem count_out : StableHlo.after hostOps0 W (Proc.devRef .tc main_v3)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg1)))
        (broadcastInDim S1600000 ![] bcast_S_S1600000 (constant (F := Ideal) S_ .f32 0x3F800000#32)) := by
  after_results

theorem ones_edges : StableHlo.after hostOps0 W (Proc.devRef .tc main_v0)
    = broadcastInDim S1600000 ![] bcast_S_S1600000 (constant (F := Ideal) S_ .f32 0x3F800000#32) := by
  after_results

theorem count_out_target : StableHlo.after hostOps0 W (Proc.devRef .tc main_arg2) = W (Proc.devRef .tc main_arg2) := by
  after_results

theorem floor_out : StableHlo.after hostOps0 W (Proc.devRef .tc main_cst_1) = constant (F := Ideal) S_ .f32 0x3F800000#32 := by
  after_results

/-! ### Clipping the out-degree below at 1 -/

theorem clip_out : StableHlo.after hostOps0_1 W (Proc.devRef .tc main_v4)
    = maximumf (F := Ideal) (φ := .f32)
        (broadcastInDim (α := Ideal .f32) S100000 ![] bcast_S_S100000
          (id (α := FVec Ideal S_ .f32) (W (Proc.devRef .tc main_cst_1))))
        (W (Proc.devRef .tc main_v3)) := by
  after_results
  rfl

theorem clip_out_target : StableHlo.after hostOps0_1 W (Proc.devRef .tc main_arg2) = W (Proc.devRef .tc main_arg2) := by
  after_results

theorem clip_out_ones : StableHlo.after hostOps0_1 W (Proc.devRef .tc main_v0) = W (Proc.devRef .tc main_v0) := by
  after_results

/-! ### Counting the edges that enter each node -/

theorem count_in : StableHlo.after hostOps0_2 W (Proc.devRef .tc main_v7)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg2)))
        (W (Proc.devRef .tc main_v0) : FVec Ideal S1600000 .f32) := by
  after_results

theorem floor_in : StableHlo.after hostOps0_2 W (Proc.devRef .tc main_cst_3) = constant (F := Ideal) S_ .f32 0x3F800000#32 := by
  after_results

theorem count_in_clipped : StableHlo.after hostOps0_2 W (Proc.devRef .tc main_v4) = W (Proc.devRef .tc main_v4) := by
  after_results

/-! ### Clipping the in-degree below at 1 -/

theorem clip_in : StableHlo.after hostOps0_3 W (Proc.devRef .tc main_v8)
    = maximumf (F := Ideal) (φ := .f32)
        (broadcastInDim (α := Ideal .f32) S100000 ![] bcast_S_S100000
          (id (α := FVec Ideal S_ .f32) (W (Proc.devRef .tc main_cst_3))))
        (W (Proc.devRef .tc main_v7)) := by
  after_results
  rfl

theorem clip_in_clipped : StableHlo.after hostOps0_3 W (Proc.devRef .tc main_v4) = W (Proc.devRef .tc main_v4) := by
  after_results

/-! ### The power -1/2 and the column layout -/

theorem column_out : StableHlo.after hostOps0_4 W (Proc.devRef .tc main_v11)
    = shapeCast S100000x1 (Host.powf (F := Ideal) (W (Proc.devRef .tc main_v4) : FVec Ideal S100000 .f32)
        (broadcastInDim S100000 ![] bcast_S_S100000 (constant (F := Ideal) S_ .f32 0xBF000000#32))) shapeCasts_S100000_S100000x1 := by
  after_results
  rfl

theorem column_in : StableHlo.after hostOps0_4 W (Proc.devRef .tc main_v14)
    = shapeCast S100000x1 (Host.powf (F := Ideal) (W (Proc.devRef .tc main_v8) : FVec Ideal S100000 .f32)
        (broadcastInDim S100000 ![] bcast_S_S100000 (constant (F := Ideal) S_ .f32 0xBF000000#32))) shapeCasts_S100000_S100000x1 := by
  after_results
  rfl

end Stretches

/-- The contents after the five stretches of host operations that precede the first region, from contents `W`. -/
abbrev prelude (W : Valuation τ sig (Elt Ideal)) : Valuation τ sig (Elt Ideal) :=
  StableHlo.after hostOps0_4 (StableHlo.after hostOps0_3 (StableHlo.after hostOps0_2
    (StableHlo.after hostOps0_1 (StableHlo.after hostOps0 W))))

section Prelude
variable (W : Valuation τ sig (Elt Ideal))

theorem prelude_sourceColumn : prelude W (Proc.devRef .tc main_v11)
    = shapeCast S100000x1 (degreeNorm (W (Proc.devRef .tc main_arg1))) shapeCasts_S100000_S100000x1 := by
  unfold degreeNorm
  dsimp only [prelude]
  rw [column_out, clip_in_clipped, count_in_clipped, clip_out, floor_out, count_out]

theorem prelude_targetColumn : prelude W (Proc.devRef .tc main_v14)
    = shapeCast S100000x1 (degreeNorm (W (Proc.devRef .tc main_arg2))) shapeCasts_S100000_S100000x1 := by
  unfold degreeNorm
  dsimp only [prelude]
  rw [column_in, clip_in, floor_in, count_in, clip_out_target, count_out_target, clip_out_ones, ones_edges]

theorem prelude_arg0 : prelude W (Proc.devRef .tc main_arg0) = W (Proc.devRef .tc main_arg0) := by after_results
theorem prelude_arg1 : prelude W (Proc.devRef .tc main_arg1) = W (Proc.devRef .tc main_arg1) := by after_results
theorem prelude_arg2 : prelude W (Proc.devRef .tc main_arg2) = W (Proc.devRef .tc main_arg2) := by after_results
theorem prelude_arg3 : prelude W (Proc.devRef .tc main_arg3) = W (Proc.devRef .tc main_arg3) := by after_results
theorem prelude_arg4 : prelude W (Proc.devRef .tc main_arg4) = W (Proc.devRef .tc main_arg4) := by after_results
theorem prelude_arg5 : prelude W (Proc.devRef .tc main_arg5) = W (Proc.devRef .tc main_arg5) := by after_results
theorem prelude_arg6 : prelude W (Proc.devRef .tc main_arg6) = W (Proc.devRef .tc main_arg6) := by after_results
theorem prelude_arg7 : prelude W (Proc.devRef .tc main_arg7) = W (Proc.devRef .tc main_arg7) := by after_results

end Prelude

/-- The out-degree normalisation as the `[N, 1]` column the program builds by a reshape. -/
def sourceColumn : FVec Ideal S100000x1 .f32 :=
  shapeCast S100000x1 (degreeNorm (m ((c : Thread nD τ).loc main_arg1))) shapeCasts_S100000_S100000x1

/-- The in-degree normalisation as an `[N, 1]` column. -/
def targetColumn : FVec Ideal S100000x1 .f32 :=
  shapeCast S100000x1 (degreeNorm (m ((c : Thread nD τ).loc main_arg2))) shapeCasts_S100000_S100000x1

/-- The first bias as the `[1, 32]` row the program builds by a reshape. -/
def biasRow1 : FVec Ideal S1x32 .f32 := shapeCast S1x32 (m ((c : Thread nD τ).loc main_arg5)) shapeCasts_S32_S1x32

/-- The second bias as a `[1, 16]` row. -/
def biasRow2 : FVec Ideal S1x16 .f32 := shapeCast S1x16 (m ((c : Thread nD τ).loc main_arg7)) shapeCasts_S16_S1x16

/-- At launch a buffer holds what the memory gives it. -/
theorem launch_arg (b : Ref sig .tc) : W0 m ρ c (Proc.devRef .tc b) = m ((c : Thread nD τ).loc b) := rfl

theorem entry0_sourceColumn : W5 m ρ c (Proc.devRef .tc main_v11) = sourceColumn m c :=
  (prelude_sourceColumn (W0 m ρ c)).trans (by rw [launch_arg]; rfl)

theorem entry0_targetColumn : W5 m ρ c (Proc.devRef .tc main_v14) = targetColumn m c :=
  (prelude_targetColumn (W0 m ρ c)).trans (by rw [launch_arg]; rfl)

theorem entry0_arg0 : W5 m ρ c (Proc.devRef .tc main_arg0) = m ((c : Thread nD τ).loc main_arg0) :=
  (prelude_arg0 (W0 m ρ c)).trans (launch_arg m ρ c _)
theorem entry0_arg1 : W5 m ρ c (Proc.devRef .tc main_arg1) = m ((c : Thread nD τ).loc main_arg1) :=
  (prelude_arg1 (W0 m ρ c)).trans (launch_arg m ρ c _)
theorem entry0_arg2 : W5 m ρ c (Proc.devRef .tc main_arg2) = m ((c : Thread nD τ).loc main_arg2) :=
  (prelude_arg2 (W0 m ρ c)).trans (launch_arg m ρ c _)
theorem entry0_arg3 : W5 m ρ c (Proc.devRef .tc main_arg3) = m ((c : Thread nD τ).loc main_arg3) :=
  (prelude_arg3 (W0 m ρ c)).trans (launch_arg m ρ c _)
theorem entry0_arg4 : W5 m ρ c (Proc.devRef .tc main_arg4) = m ((c : Thread nD τ).loc main_arg4) :=
  (prelude_arg4 (W0 m ρ c)).trans (launch_arg m ρ c _)
theorem entry0_arg5 : W5 m ρ c (Proc.devRef .tc main_arg5) = m ((c : Thread nD τ).loc main_arg5) :=
  (prelude_arg5 (W0 m ρ c)).trans (launch_arg m ρ c _)
theorem entry0_arg6 : W5 m ρ c (Proc.devRef .tc main_arg6) = m ((c : Thread nD τ).loc main_arg6) :=
  (prelude_arg6 (W0 m ρ c)).trans (launch_arg m ρ c _)
theorem entry0_arg7 : W5 m ρ c (Proc.devRef .tc main_arg7) = m ((c : Thread nD τ).loc main_arg7) :=
  (prelude_arg7 (W0 m ρ c)).trans (launch_arg m ρ c _)

end Cert.KernelIdeal.Chain

end
-- ==== Proof.Layer1.lean ====
/-
  From the first grid region to the entry of the second: the first layer's product and its edge aggregation.

  Given that the first region leaves, in its output array, `scaleThenProduct` of its three input arrays (`hR0`), that
  array is `h₁ = (X · diag s) · W₁` with `s` the out-degree column; the host operations after the region gather the
  rows of `h₁` along the edges, weight them and scatter-add them: `a₁ = aggregate32 h₁ src dst ew`, and lay the first
  bias out as a row.  The columns and the arguments pass through untouched.  The host stretch is read from ANY
  contents `W` first, so that the arrays it only reads stay plain names.
-/
import proofs.«171198_j12876311953783_1_alg».proof.Proof.Degrees

noncomputable section

namespace Cert.KernelIdeal.Chain

open Idealize.ShloMosaic Idealize.ShloMosaic.TcCoe Idealize.ShloMosaic.StableHlo Idealize.SL.Sem
open Cert.KernelIdeal Cert.KernelIdeal.Gen Cert.GcnSpec

variable (m : (ℓ : Loc nD τ sig) → Buf (Elt Ideal) ℓ) (ρ : Dev nD → PrngReg) (c : Dev nD)

section Stretch
variable (W : Valuation τ sig (Elt Ideal))

set_option maxHeartbeats 1000000 in
theorem stretch1_aggregated : StableHlo.after hostOps1 W (Proc.devRef .tc main_v28)
    = aggregate32 (W (Proc.devRef .tc main_v15)) (W (Proc.devRef .tc main_arg1)) (W (Proc.devRef .tc main_arg2))
        (W (Proc.devRef .tc main_arg3)) := by
  after_results
  unfold aggregate32 wrapIndex
  rfl

theorem stretch1_biasRow : StableHlo.after hostOps1 W (Proc.devRef .tc main_v29)
    = shapeCast S1x32 (W (Proc.devRef .tc main_arg5)) shapeCasts_S32_S1x32 := by
  after_results
  rfl

theorem stretch1_v11 : StableHlo.after hostOps1 W (Proc.devRef .tc main_v11) = W (Proc.devRef .tc main_v11) := by after_results
theorem stretch1_v14 : StableHlo.after hostOps1 W (Proc.devRef .tc main_v14) = W (Proc.devRef .tc main_v14) := by after_results
theorem stretch1_arg1 : StableHlo.after hostOps1 W (Proc.devRef .tc main_arg1) = W (Proc.devRef .tc main_arg1) := by after_results
theorem stretch1_arg2 : StableHlo.after hostOps1 W (Proc.devRef .tc main_arg2) = W (Proc.devRef .tc main_arg2) := by after_results
theorem stretch1_arg3 : StableHlo.after hostOps1 W (Proc.devRef .tc main_arg3) = W (Proc.devRef .tc main_arg3) := by after_results
theorem stretch1_arg6 : StableHlo.after hostOps1 W (Proc.devRef .tc main_arg6) = W (Proc.devRef .tc main_arg6) := by after_results
theorem stretch1_arg7 : StableHlo.after hostOps1 W (Proc.devRef .tc main_arg7) = W (Proc.devRef .tc main_arg7) := by after_results

end Stretch

/-- The first layer's dense product: `(X · diag s) · W₁`. -/
def product1 : FVec Ideal S100000x32 .f32 :=
  scaleThenProduct (m ((c : Thread nD τ).loc main_arg0)) (sourceColumn m c) (m ((c : Thread nD τ).loc main_arg4))

/-- The first layer's aggregation over the edges. -/
def aggregated1 : FVec Ideal S100000x32 .f32 :=
  aggregate32 (product1 m c) (m ((c : Thread nD τ).loc main_arg1)) (m ((c : Thread nD τ).loc main_arg2))
    (m ((c : Thread nD τ).loc main_arg3))

/-- The first region reads the out-degree column through an input window: it is unchanged. -/
theorem exit0_sourceColumn : W6 m ρ c (Proc.devRef .tc main_v11) = sourceColumn m c :=
  ((W6_arr m ρ c 1).trans (((dat0 (V5 m ρ) c).arrAt_in 1 rfl _).trans (A_eq0 (V5 m ρ) c 1))).trans
    (entry0_sourceColumn m ρ c)

theorem exit0_targetColumn : W6 m ρ c (Proc.devRef .tc main_v14) = targetColumn m c :=
  (W6_of_ne m ρ c main_v14 (by decide)).trans (entry0_targetColumn m ρ c)
theorem exit0_arg1 : W6 m ρ c (Proc.devRef .tc main_arg1) = m ((c : Thread nD τ).loc main_arg1) :=
  (W6_of_ne m ρ c main_arg1 (by decide)).trans (entry0_arg1 m ρ c)
theorem exit0_arg2 : W6 m ρ c (Proc.devRef .tc main_arg2) = m ((c : Thread nD τ).loc main_arg2) :=
  (W6_of_ne m ρ c main_arg2 (by decide)).trans (entry0_arg2 m ρ c)
theorem exit0_arg3 : W6 m ρ c (Proc.devRef .tc main_arg3) = m ((c : Thread nD τ).loc main_arg3) :=
  (W6_of_ne m ρ c main_arg3 (by decide)).trans (entry0_arg3 m ρ c)
theorem exit0_arg5 : W6 m ρ c (Proc.devRef .tc main_arg5) = m ((c : Thread nD τ).loc main_arg5) :=
  (W6_of_ne m ρ c main_arg5 (by decide)).trans (entry0_arg5 m ρ c)
theorem exit0_arg6 : W6 m ρ c (Proc.devRef .tc main_arg6) = m ((c : Thread nD τ).loc main_arg6) :=
  (W6_of_ne m ρ c main_arg6 (by decide)).trans (entry0_arg6 m ρ c)
theorem exit0_arg7 : W6 m ρ c (Proc.devRef .tc main_arg7) = m ((c : Thread nD τ).loc main_arg7) :=
  (W6_of_ne m ρ c main_arg7 (by decide)).trans (entry0_arg7 m ρ c)

theorem entry1_biasRow : W7 m ρ c (Proc.devRef .tc main_v29) = biasRow1 m c :=
  (stretch1_biasRow (W6 m ρ c)).trans (by rw [exit0_arg5]; rfl)
theorem entry1_sourceColumn : W7 m ρ c (Proc.devRef .tc main_v11) = sourceColumn m c :=
  (stretch1_v11 (W6 m ρ c)).trans (exit0_sourceColumn m ρ c)
theorem entry1_targetColumn : W7 m ρ c (Proc.devRef .tc main_v14) = targetColumn m c :=
  (stretch1_v14 (W6 m ρ c)).trans (exit0_targetColumn m ρ c)
theorem entry1_arg1 : W7 m ρ c (Proc.devRef .tc main_arg1) = m ((c : Thread nD τ).loc main_arg1) :=
  (stretch1_arg1 (W6 m ρ c)).trans (exit0_arg1 m ρ c)
theorem entry1_arg2 : W7 m ρ c (Proc.devRef .tc main_arg2) = m ((c : Thread nD τ).loc main_arg2) :=
  (stretch1_arg2 (W6 m ρ c)).trans (exit0_arg2 m ρ c)
theorem entry1_arg3 : W7 m ρ c (Proc.devRef .tc main_arg3) = m ((c : Thread nD τ).loc main_arg3) :=
  (stretch1_arg3 (W6 m ρ c)).trans (exit0_arg3 m ρ c)
theorem entry1_arg6 : W7 m ρ c (Proc.devRef .tc main_arg6) = m ((c : Thread nD τ).loc main_arg6) :=
  (stretch1_arg6 (W6 m ρ c)).trans (exit0_arg6 m ρ c)
theorem entry1_arg7 : W7 m ρ c (Proc.devRef .tc main_arg7) = m ((c : Thread nD τ).loc main_arg7) :=
  (stretch1_arg7 (W6 m ρ c)).trans (exit0_arg7 m ρ c)

section
variable (hR0 : ∀ (V : (c : Dev nD) → (b : Ref sig .tc) → Buf (Elt Ideal) ((c : Thread nD τ).loc b)) (c : Dev nD),
    (dat0 (F := Ideal) V c).arrAt 3 cfg0.N = scaleThenProduct (V c main_arg0) (V c main_v11) (V c main_arg4))
include hR0

/-- After the first region its output array holds the first layer's product. -/
theorem exit0_product : W6 m ρ c (Proc.devRef .tc main_v15) = product1 m c := by
  refine (W6_arr m ρ c 3).trans ((hR0 (V5 m ρ) c).trans ?_)
  show scaleThenProduct (W5 m ρ c (Proc.devRef .tc main_arg0)) (W5 m ρ c (Proc.devRef .tc main_v11))
      (W5 m ρ c (Proc.devRef .tc main_arg4)) = _
  rw [entry0_arg0, entry0_sourceColumn, entry0_arg4]
  rfl

/-- The second region is entered with the first layer's aggregation in its first input array. -/
theorem entry1_aggregated : W7 m ρ c (Proc.devRef .tc main_v28) = aggregated1 m c :=
  (stretch1_aggregated (W6 m ρ c)).trans (by
    rw [exit0_product m ρ c hR0, exit0_arg1, exit0_arg2, exit0_arg3]; rfl)
end

end Cert.KernelIdeal.Chain

end
-- ==== Proof.Layer2.lean ====
/-
  From the second grid region to the entry of the third: the second layer's product and its edge aggregation.

  Given that the second region leaves, in its output array, `scaleThenProduct (hidden · · ·) · ·` of its five input
  arrays (`hR1`), and what it is entered with (the first layer's aggregation `a₁`, the in-degree column `t`, the first
  bias row `b₁`, the out-degree column `s`, the weights `W₂`), that array is
  `h₂ = (relu (a₁ · diag t + b₁) · diag s) · W₂`.  The host operations after the region gather the rows of `h₂` along
  the edges, weight them and scatter-add them: `a₂ = aggregate16 h₂ src dst ew`, and lay the second bias out as a row.
  The in-degree column and the arguments pass through untouched.  The host stretch is read from ANY contents `W`
  first, so that the arrays it only reads stay plain names.
-/
import proofs.«171198_j12876311953783_1_alg».proof.Proof.Layer1

noncomputable section

namespace Cert.KernelIdeal.Chain

open Idealize.ShloMosaic Idealize.ShloMosaic.TcCoe Idealize.ShloMosaic.StableHlo Idealize.SL.Sem
open Cert.KernelIdeal Cert.KernelIdeal.Gen Cert.GcnSpec

variable (m : (ℓ : Loc nD τ sig) → Buf (Elt Ideal) ℓ) (ρ : Dev nD → PrngReg) (c : Dev nD)

section Stretch
variable (W : Valuation τ sig (Elt Ideal))

theorem stretch2_aggregated : StableHlo.after hostOps2 W (Proc.devRef .tc main_v43)
    = aggregate16 (W (Proc.devRef .tc main_v30)) (W (Proc.devRef .tc main_arg1)) (W (Proc.devRef .tc main_arg2))
        (W (Proc.devRef .tc main_arg3)) := by
  unfold aggregate16 wrapIndex
  after_results_simp

theorem stretch2_biasRow : StableHlo.after hostOps2 W (Proc.devRef .tc main_v44)
    = shapeCast S1x16 (W (Proc.devRef .tc main_arg7)) shapeCasts_S16_S1x16 := by
  after_results
  rfl

theorem stretch2_v14 : StableHlo.after hostOps2 W (Proc.devRef .tc main_v14) = W (Proc.devRef .tc main_v14) := by after_results

end Stretch

/-- The second layer's dense product: the rectified hidden layer, its rows scaled by the out-degree column, times `W₂`. -/
def product2 : FVec Ideal S100000x16 .f32 :=
  scaleThenProduct (hidden (aggregated1 m c) (targetColumn m c) (biasRow1 m c)) (sourceColumn m c)
    (m ((c : Thread nD τ).loc main_arg6))

/-- The second layer's aggregation over the edges. -/
def aggregated2 : FVec Ideal S100000x16 .f32 :=
  aggregate16 (product2 m c) (m ((c : Thread nD τ).loc main_arg1)) (m ((c : Thread nD τ).loc main_arg2))
    (m ((c : Thread nD τ).loc main_arg3))

/-- The second region reads the in-degree column through an input window: it is unchanged. -/
theorem exit1_targetColumn : W8 m ρ c (Proc.devRef .tc main_v14) = targetColumn m c :=
  ((W8_arr m ρ c 1).trans (((dat1 (V7 m ρ) c).arrAt_in 1 rfl _).trans (A_eq1 (V7 m ρ) c 1))).trans
    (entry1_targetColumn m ρ c)

theorem exit1_arg1 : W8 m ρ c (Proc.devRef .tc main_arg1) = m ((c : Thread nD τ).loc main_arg1) :=
  (W8_of_ne m ρ c main_arg1 (by decide)).trans (entry1_arg1 m ρ c)
theorem exit1_arg2 : W8 m ρ c (Proc.devRef .tc main_arg2) = m ((c : Thread nD τ).loc main_arg2) :=
  (W8_of_ne m ρ c main_arg2 (by decide)).trans (entry1_arg2 m ρ c)
theorem exit1_arg3 : W8 m ρ c (Proc.devRef .tc main_arg3) = m ((c : Thread nD τ).loc main_arg3) :=
  (W8_of_ne m ρ c main_arg3 (by decide)).trans (entry1_arg3 m ρ c)
theorem exit1_arg7 : W8 m ρ c (Proc.devRef .tc main_arg7) = m ((c : Thread nD τ).loc main_arg7) :=
  (W8_of_ne m ρ c main_arg7 (by decide)).trans (entry1_arg7 m ρ c)

theorem entry2_biasRow : W9 m ρ c (Proc.devRef .tc main_v44) = biasRow2 m c :=
  (stretch2_biasRow (W8 m ρ c)).trans (by rw [exit1_arg7]; rfl)
theorem entry2_targetColumn : W9 m ρ c (Proc.devRef .tc main_v14) = targetColumn m c :=
  (stretch2_v14 (W8 m ρ c)).trans (exit1_targetColumn m ρ c)

section
variable (hR0 : ∀ (V : (c : Dev nD) → (b : Ref sig .tc) → Buf (Elt Ideal) ((c : Thread nD τ).loc b)) (c : Dev nD),
    (dat0 (F := Ideal) V c).arrAt 3 cfg0.N = scaleThenProduct (V c main_arg0) (V c main_v11) (V c main_arg4))
  (hR1 : ∀ (V : (c : Dev nD) → (b : Ref sig .tc) → Buf (Elt Ideal) ((c : Thread nD τ).loc b)) (c : Dev nD),
    (dat1 (F := Ideal) V c).arrAt 5 cfg1.N
      = scaleThenProduct (hidden (V c main_v28) (V c main_v14) (V c main_v29)) (V c main_v11) (V c main_arg6))
include hR0 hR1

/-- After the second region its output array holds the second layer's product. -/
theorem exit1_product : W8 m ρ c (Proc.devRef .tc main_v30) = product2 m c := by
  refine (W8_arr m ρ c 5).trans ((hR1 (V7 m ρ) c).trans ?_)
  show scaleThenProduct (hidden (W7 m ρ c (Proc.devRef .tc main_v28)) (W7 m ρ c (Proc.devRef .tc main_v14))
      (W7 m ρ c (Proc.devRef .tc main_v29))) (W7 m ρ c (Proc.devRef .tc main_v11))
      (W7 m ρ c (Proc.devRef .tc main_arg6)) = _
  rw [entry1_aggregated m ρ c hR0, entry1_targetColumn, entry1_biasRow, entry1_sourceColumn, entry1_arg6]
  rfl

/-- The third region is entered with the second layer's aggregation in its first input array. -/
theorem entry2_aggregated : W9 m ρ c (Proc.devRef .tc main_v43) = aggregated2 m c :=
  (stretch2_aggregated (W8 m ρ c)).trans (by
    rw [exit1_product m ρ c hR0 hR1, exit1_arg1, exit1_arg2, exit1_arg3]; rfl)
end

end Cert.KernelIdeal.Chain

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.Output.lean ====
/-
  The third grid region and the whole result.

  Given what each of the three regions leaves in its output array (`hR0`, `hR1`, `hR2`: each a row-local function
  of the region's input arrays), the program's result array is
      scaleAddBias a₂ t b₂,   a₂ = A( scaleThenProduct (hidden a₁ t b₁) s W₂ ),   a₁ = A( scaleThenProduct X s W₁ ),
  with `s`, `t` the two degree columns the program lays out by reshapes and `b₁`, `b₂` the bias rows.  A reshape of
  a vector into a column (a row) is the column (the row) of the vector, entry by entry; so the result is `network` of
  the eight arguments.
-/
import proofs.«171198_j12876311953783_1_alg».proof.Proof.Layer2
import proofs.«171198_j12876311953783_1_alg».proof.Proof.LibUnitColumn
import proofs.«171198_j12876311953783_1_alg».proof.Proof.LibUnitRow

noncomputable section

namespace Cert.KernelIdeal.Chain

open Idealize.ShloMosaic Idealize.ShloMosaic.TcCoe Idealize.ShloMosaic.StableHlo Idealize.SL.Sem
open Cert.KernelIdeal Cert.KernelIdeal.Gen Cert.GcnSpec

variable (m : (ℓ : Loc nD τ sig) → Buf (Elt Ideal) ℓ) (ρ : Dev nD → PrngReg) (c : Dev nD)

open Idealize.ShloMosaic.ValueIdx

/-- A vector reshaped to an `[N, 1]` array is its column. -/
theorem column_of_reshape (n : FVec Ideal S100000 .f32) :
    shapeCast S100000x1 n shapeCasts_S100000_S100000x1 = column n := by
  funext i
  obtain ⟨p, u, rfl⟩ : ∃ (p : Fin 100000) (u : Fin 1), i = ix2 p u := ⟨i 0, i 1, eq_ix2 i⟩
  exact Cert.LibUnitColumn.shapeCast_a_a1_apply n shapeCasts_S100000_S100000x1 p u

/-- A 32-vector reshaped to a `[1, 32]` array is its row. -/
theorem row_of_reshape32 (b : FVec Ideal S32 .f32) : shapeCast S1x32 b shapeCasts_S32_S1x32 = row b := by
  funext i
  obtain ⟨u, j, rfl⟩ : ∃ (u : Fin 1) (j : Fin 32), i = ix2 u j := ⟨i 0, i 1, eq_ix2 i⟩
  exact Cert.LibUnitRow.unitRow_apply b shapeCasts_S32_S1x32 u j

/-- A 16-vector reshaped to a `[1, 16]` array is its row. -/
theorem row_of_reshape16 (b : FVec Ideal S16 .f32) : shapeCast S1x16 b shapeCasts_S16_S1x16 = row b := by
  funext i
  obtain ⟨u, j, rfl⟩ : ∃ (u : Fin 1) (j : Fin 16), i = ix2 u j := ⟨i 0, i 1, eq_ix2 i⟩
  exact Cert.LibUnitRow.unitRow_apply b shapeCasts_S16_S1x16 u j

theorem sourceColumn_eq : sourceColumn m c = column (degreeNorm (m ((c : Thread nD τ).loc main_arg1))) := column_of_reshape _
theorem targetColumn_eq : targetColumn m c = column (degreeNorm (m ((c : Thread nD τ).loc main_arg2))) := column_of_reshape _
theorem biasRow1_eq : biasRow1 m c = row (m ((c : Thread nD τ).loc main_arg5)) := row_of_reshape32 _
theorem biasRow2_eq : biasRow2 m c = row (m ((c : Thread nD τ).loc main_arg7)) := row_of_reshape16 _

section
variable (hR0 : ∀ (V : (c : Dev nD) → (b : Ref sig .tc) → Buf (Elt Ideal) ((c : Thread nD τ).loc b)) (c : Dev nD),
    (dat0 (F := Ideal) V c).arrAt 3 cfg0.N = scaleThenProduct (V c main_arg0) (V c main_v11) (V c main_arg4))
variable (hR1 : ∀ (V : (c : Dev nD) → (b : Ref sig .tc) → Buf (Elt Ideal) ((c : Thread nD τ).loc b)) (c : Dev nD),
    (dat1 (F := Ideal) V c).arrAt 5 cfg1.N
      = scaleThenProduct (hidden (V c main_v28) (V c main_v14) (V c main_v29)) (V c main_v11) (V c main_arg6))
variable (hR2 : ∀ (V : (c : Dev nD) → (b : Ref sig .tc) → Buf (Elt Ideal) ((c : Thread nD τ).loc b)) (c : Dev nD),
    (dat2 (F := Ideal) V c).arrAt 3 cfg2.N = scaleAddBias (V c main_v43) (V c main_v14) (V c main_v44))
include hR0 hR1 hR2

/-- After the third region the result array is the second aggregation, scaled by the in-degree column, plus the
    second bias row. -/
theorem result_layered : W10 m ρ c (Proc.devRef .tc main_v45)
    = scaleAddBias (aggregated2 m c) (targetColumn m c) (biasRow2 m c) := by
  refine (W10_arr m ρ c 3).trans ((hR2 (V9 m ρ) c).trans ?_)
  show scaleAddBias (W9 m ρ c (Proc.devRef .tc main_v43)) (W9 m ρ c (Proc.devRef .tc main_v14))
      (W9 m ρ c (Proc.devRef .tc main_v44)) = _
  rw [entry2_aggregated m ρ c hR0 hR1, entry2_targetColumn, entry2_biasRow]

/-- The result array is the two-layer network of the eight arguments. -/
theorem result_network : W10 m ρ c (Proc.devRef .tc main_v45)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [result_layered m ρ c hR0 hR1 hR2]
  unfold network layers aggregated2 product2 aggregated1 product1
  rw [sourceColumn_eq, targetColumn_eq, biasRow1_eq, biasRow2_eq]
end

end Cert.KernelIdeal.Chain

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region0.lean ====
/-
  The first region of the two-layer graph convolution, as one whole-array function.

  The region walks the 100000 node rows in 20 blocks of 5000.  At block `t` its body reads rows
  `5000 t … 5000 t + 4999` of the features `x : [100000, 32]` and of the scaling column `s : [100000, 1]`, the whole
  weight matrix `w : [32, 32]`, and stores, at `(p, q)` of the block,  `∑ₖ (x(5000 t + p, k) · s(5000 t + p, 0)) · w(k, q)`:
  on the extended reals the change of float format before the product is the identity and the product into a zero
  accumulator is that plain sum.  So block `t` of the result is block `t` of `scaleThenProduct x s w`; the 20 blocks
  cover every row (row `r` lies in block `r / 5000`); hence the result array is `scaleThenProduct x s w`.

  In order: the body's stored value at an index (`body0_apply`); where each window's block sits (`blocks0_at`) and what
  each input block reads (`features0_block`, `scale0_block`, `weights0_block`); what a point writes back
  (`flushed0_block`); the cover (`cover0`); the array (`region0_array`).
-/
import proofs.«171198_j12876311953783_1_alg».proof.Proof.Gen.KernelIdeal.Frame
import proofs.«171198_j12876311953783_1_alg».proof.Proof.Spec
import proofs.«171198_j12876311953783_1_alg».proof.Proof.LibRowOps
import proofs.«171198_j12876311953783_1_alg».proof.Proof.LibColumn
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.TcCoe Idealize.ShloMosaic.Pipeline Idealize.SL.Sem
open Idealize.ShloMosaic.ValueIdx
open Cert.KernelIdeal Cert.KernelIdeal.Gen Cert.GcnSpec

variable (V : (c : Dev nD) → (b : Ref sig .tc) → Buf (Elt Ideal) ((c : Thread nD τ).loc b))

/-! ## The body's product at an index -/

/-- In the body's matrix product the left operand's row is the result's row, -/
theorem prod0_lhs_row (j : S5000x32.Idx) (q : dot_S5000x32_S32x32_S5000x32_1_0_0_1_n_n.contr.Idx) :
    (dot_S5000x32_S32x32_S5000x32_1_0_0_1_n_n.lhsIdx j q 0).val = (j 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl

/-- its column is the contracted coordinate, -/
theorem prod0_lhs_col (j : S5000x32.Idx) (q : dot_S5000x32_S32x32_S5000x32_1_0_0_1_n_n.contr.Idx) :
    (dot_S5000x32_S32x32_S5000x32_1_0_0_1_n_n.lhsIdx j q 1).val = (q ⟨0, by decide⟩).val :=
  dot_S5000x32_S32x32_S5000x32_1_0_0_1_n_n.lhsIdx_val_of_single rfl j q

/-- the right operand's row is the contracted coordinate, -/
theorem prod0_rhs_row (j : S5000x32.Idx) (q : dot_S5000x32_S32x32_S5000x32_1_0_0_1_n_n.contr.Idx) :
    (dot_S5000x32_S32x32_S5000x32_1_0_0_1_n_n.rhsIdx j q 0).val = (q ⟨0, by decide⟩).val :=
  dot_S5000x32_S32x32_S5000x32_1_0_0_1_n_n.rhsIdx_val_of_single rfl j q

/-- and its column is the result's column. -/
theorem prod0_rhs_col (j : S5000x32.Idx) (q : dot_S5000x32_S32x32_S5000x32_1_0_0_1_n_n.contr.Idx) :
    (dot_S5000x32_S32x32_S5000x32_1_0_0_1_n_n.rhsIdx j q 1).val = (j 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- What the body stores, at row `p` and column `q` of the block: the block's row `p` scaled by the column block's
    entry `p`, times column `q` of the weights. -/
theorem body0_apply (x0 : Vec Ideal S5000x32 .f32) (x1 : Vec Ideal S5000x1 .f32) (x2 : Vec Ideal S32x32 .f32)
    (p : Fin 5000) (q : Fin 32) :
    k0_pay1 x0 x1 x2 (ix2 p q) = ∑ k : Fin 32, (x0 (ix2 p k) * x1 (ix2 p (0 : Fin 1))) * x2 (ix2 k q) := by
  unfold k0_pay1
  refine (Cert.LibRowOps.matmul_zero_apply dot_S5000x32_S32x32_S5000x32_1_0_0_1_n_n none _ _ rfl rfl
    prod0_lhs_row prod0_lhs_col prod0_rhs_row prod0_rhs_col p q).trans ?_
  refine Finset.sum_congr rfl fun k _ => ?_
  rw [truncf_apply, truncf_apply, mulf_apply, shapeCast_self, Cert.LibColumn.broadcastTo_a1_ab_apply]

/-! ## Where each window's block sits -/

theorem zeros2 : (![0, 0] : Fin 2 → Nat) = fun _ => 0 := funext fun a => by fin_cases a <;> rfl

/-- The index maps over the grid: at point `t` the rows' windows (the features, the scaling column, the result) are at
    row block `t`, column block 0; the weights' window is its whole array. -/
theorem blocks0_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t`: entry `(p, k)` of the block is entry `(5000 t + p, k)` of the array. -/
theorem features0_block (c : Dev nD) (t : Fin cfg0.N) (p : Fin 5000) (k : Fin 32) (r : Fin 100000)
    (hr : r.val = t.val * 5000 + p.val) :
    (iblk0 V c 0 t : Vec Ideal S5000x32 .f32) (ix2 p k) = (V c main_arg0 : S100000x32.Idx → Elt Ideal .f32) (ix2 r k) := by
  obtain ⟨e0, e1, -⟩ := blocks0_at t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 32 + 1 * k.val = k.val; rw [e1]; omega

/-- The scaling column's block at point `t`: entry `(p, 0)` of the block is entry `(5000 t + p, 0)` of the column. -/
theorem scale0_block (c : Dev nD) (t : Fin cfg0.N) (p : Fin 5000) (u : Fin 1) (r : Fin 100000)
    (hr : r.val = t.val * 5000 + p.val) :
    (iblk0 V c 1 t : Vec Ideal S5000x1 .f32) (ix2 p u) = (V c main_v11 : S100000x1.Idx → Elt Ideal .f32) (ix2 r u) := by
  obtain ⟨-, -, e0, e1, -⟩ := blocks0_at t
  unfold iblk0
  rw [View.read_apply]
  show V c main_v11 _ = V c main_v11 _
  congr 1
  funext a
  apply Fin.ext
  match a with
  | ⟨0, _⟩ => show win0_1.index t 0 * 5000 + 1 * p.val = r.val; rw [e0, hr]; omega
  | ⟨1, _⟩ => show win0_1.index t 1 * 1 + 1 * u.val = u.val; rw [e1]; omega

/-- The weights' block at any point is the whole weight matrix. -/
theorem weights0_block (c : Dev nD) (t : Fin cfg0.N) (k : Fin 32) (q : Fin 32) :
    (iblk0 V c 2 t : Vec Ideal S32x32 .f32) (ix2 k q) = (V c main_arg4 : S32x32.Idx → Elt Ideal .f32) (ix2 k q) := by
  obtain ⟨-, -, -, -, e0, e1, -⟩ := blocks0_at t
  unfold iblk0
  rw [View.read_apply]
  show V c main_arg4 _ = V c main_arg4 _
  congr 1
  funext a
  apply Fin.ext
  match a with
  | ⟨0, _⟩ => show win0_2.index t 0 * 32 + 1 * k.val = k.val; rw [e0]; omega
  | ⟨1, _⟩ => show win0_2.index t 1 * 32 + 1 * q.val = q.val; rw [e1]; omega

/-- The scaled product read at row `r`, column `q`. -/
theorem scaleThenProduct_at {d : ℕ} (x : FVec Ideal ⟨2, ![100000, 32]⟩ .f32) (s : FVec Ideal ⟨2, ![100000, 1]⟩ .f32)
    (w : FVec Ideal ⟨2, ![32, d]⟩ .f32) (r : Fin 100000) (q : Fin d) :
    scaleThenProduct x s w (ix2 r q) = ∑ k : Fin 32, (x (ix2 r k) * s (ix2 r (0 : Fin 1))) * w (ix2 k q) := rfl

/-! ## What a point writes back, and the whole array -/

/-- What point `t` writes back is block `t` of the scaled product of the region's input arrays. -/
theorem flushed0_block (c : Dev nD) (t : Fin cfg0.N) :
    (dat0 (F := Ideal) V c).flushed 3 t
      = ((cfg0.win 3).blk t).view.read (Elt Ideal) (scaleThenProduct (V c main_arg0) (V c main_v11) (V c main_arg4)) := by
  show (cfg0.win 3).cut (grid0.coords t) ((dat0 V c).after 3 t) = _
  rw [after0_3]
  unfold out0_3
  rw [View.canon_unit_zero zeros2]
  simp only [View.ld_unit_zero (S := S5000x32) zeros2, View.ld_unit_zero (S := S5000x1) zeros2,
    View.ld_unit_zero (S := S32x32) zeros2]
  have hN : t.val < 20 := Nat.lt_of_lt_of_eq t.isLt N_0
  obtain ⟨-, -, -, -, -, -, e0, e1⟩ := blocks0_at t
  funext j
  obtain ⟨p, q, rfl⟩ : ∃ (p : Fin 5000) (q : Fin 32), j = ix2 p q := ⟨j 0, j 1, eq_ix2 j⟩
  have hr : t.val * 5000 + p.val < 100000 := by have := p.isLt; omega
  have hemb : ((cfg0.win 3).blk t).view.emb (ix2 p q)
      = (ix2 (⟨t.val * 5000 + p.val, hr⟩ : Fin 100000) q : S100000x32.Idx) := by
    funext a
    apply Fin.ext
    match a with
    | ⟨0, _⟩ => show win0_3.index t 0 * 5000 + 1 * p.val = t.val * 5000 + p.val; rw [e0]; omega
    | ⟨1, _⟩ => show win0_3.index t 1 * 32 + 1 * q.val = q.val; rw [e1]; omega
  show k0_pay1 (iblk0 V c 0 t) (iblk0 V c 1 t) (iblk0 V c 2 t) (ix2 p q)
    = scaleThenProduct (V c main_arg0) (V c main_v11) (V c main_arg4) (((cfg0.win 3).blk t).view.emb (ix2 p q))
  rw [hemb]
  refine (body0_apply (iblk0 V c 0 t) (iblk0 V c 1 t) (iblk0 V c 2 t) p q).trans ?_
  refine Eq.trans ?_ (scaleThenProduct_at _ _ _ _ _).symm
  refine Finset.sum_congr rfl fun k _ => ?_
  rw [features0_block V c t p k ⟨t.val * 5000 + p.val, hr⟩ rfl, scale0_block V c t p 0 ⟨t.val * 5000 + p.val, hr⟩ rfl,
    weights0_block V c t k q]

/-- An index of the result array is in point `t`'s block iff each coordinate is in the block's range on its axis. -/
theorem mem_block0 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v15).slice (win0_3.rect t)).set ↔ _
  rw [View.set_slice_whole, Rect.mem_set_unit]
  exact Iff.rfl

/-- Every row is in the block of the point numbered by the row's quotient by 5000. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_3 _, ?_⟩
  obtain ⟨-, -, -, -, -, -, e0, e1⟩ := blocks0_at ⟨(i 0).val / 5000, by rw [hN]; omega⟩
  rw [mem_block0]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 32 ≤ (i 1).val ∧ (i 1).val < win0_3.index _ (1 : Fin 2) * 32 + 32
    rw [e1]; omega

/-- The first region's result array after its run: the features' rows scaled by the scaling column, times the weights. -/
theorem region0_array (c : Dev nD) :
    (dat0 (F := Ideal) V c).arrAt 3 cfg0.N = scaleThenProduct (V c main_arg0) (V c main_v11) (V c main_arg4) :=
  (dat0 (F := Ideal) V c).arrAt_eq_of_cover 3 _ (fun t _ => flushed0_block V c t) cover0

end Cert.KernelIdeal.RegionValue

end
-- ==== Proof.Region1.lean ====
/-
  The second region of the two-layer graph convolution, as one whole-array function.

  The region walks the 100000 node rows in 20 blocks of 5000.  At block `t` its body reads rows
  `5000 t … 5000 t + 4999` of the aggregated first layer `a : [100000, 32]` and of the two scaling columns
  `s, s' : [100000, 1]`, the whole bias row `b : [1, 32]` and the whole weight matrix `w : [32, 16]`, and stores, at
  `(p, q)` of the block, with `r = 5000 t + p`,
      `∑ₖ (max (a(r, k) · s(r, 0) + b(0, k)) 0 · s'(r, 0)) · w(k, q)` :
  on the extended reals the change of float format before the product is the identity and the product into a zero
  accumulator is that plain sum.  So block `t` of the result is block `t` of
  `scaleThenProduct (hidden a s b) s' w`; the 20 blocks cover every row (row `r` lies in block `r / 5000`); hence the
  result array is that function.

  In order: the body's stored value at an index (`body1_apply`); where each window's block sits (`blocks1_at`) and what
  each input block reads (`aggregated1_block`, `innerScale1_block`, `bias1_block`, `outerScale1_block`,
  `weights1_block`); what a point writes back (`flushed1_block`); the cover (`cover1`); the array (`region1_array`).
-/
import proofs.«171198_j12876311953783_1_alg».proof.Proof.Gen.KernelIdeal.Frame
import proofs.«171198_j12876311953783_1_alg».proof.Proof.Spec
import proofs.«171198_j12876311953783_1_alg».proof.Proof.LibRowOps
import proofs.«171198_j12876311953783_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.ShloMosaic.Pipeline Idealize.SL.Sem
open Idealize.ShloMosaic.ValueIdx
open Cert.KernelIdeal Cert.KernelIdeal.Gen Cert.GcnSpec

variable (V : (c : Dev nD) → (b : Ref sig .tc) → Buf (Elt Ideal) ((c : Thread nD τ).loc b))

/-! ## The body's product at an index -/

/-- In the body's matrix product the left operand's row is the result's row, -/
theorem prod1_lhs_row (j : S5000x16.Idx) (q : dot_S5000x32_S32x16_S5000x16_1_0_0_1_n_n.contr.Idx) :
    (dot_S5000x32_S32x16_S5000x16_1_0_0_1_n_n.lhsIdx j q 0).val = (j 0).val := by
  unfold DotDims.lhsIdx
  rw [dif_neg (show ¬(0 : Fin S5000x32.rank) ∈ dot_S5000x32_S32x16_S5000x16_1_0_0_1_n_n.lhsBatch by decide),
    dif_pos (show (0 : Fin S5000x32.rank) ∈ dot_S5000x32_S32x16_S5000x16_1_0_0_1_n_n.lhsNonContracting by decide)]
  rfl

/-- its column is the contracted coordinate, -/
theorem prod1_lhs_col (j : S5000x16.Idx) (q : dot_S5000x32_S32x16_S5000x16_1_0_0_1_n_n.contr.Idx) :
    (dot_S5000x32_S32x16_S5000x16_1_0_0_1_n_n.lhsIdx j q 1).val = (q ⟨0, by decide⟩).val :=
  dot_S5000x32_S32x16_S5000x16_1_0_0_1_n_n.lhsIdx_val_of_single rfl j q

/-- the right operand's row is the contracted coordinate, -/
theorem prod1_rhs_row (j : S5000x16.Idx) (q : dot_S5000x32_S32x16_S5000x16_1_0_0_1_n_n.contr.Idx) :
    (dot_S5000x32_S32x16_S5000x16_1_0_0_1_n_n.rhsIdx j q 0).val = (q ⟨0, by decide⟩).val :=
  dot_S5000x32_S32x16_S5000x16_1_0_0_1_n_n.rhsIdx_val_of_single rfl j q

/-- and its column is the result's column. -/
theorem prod1_rhs_col (j : S5000x16.Idx) (q : dot_S5000x32_S32x16_S5000x16_1_0_0_1_n_n.contr.Idx) :
    (dot_S5000x32_S32x16_S5000x16_1_0_0_1_n_n.rhsIdx j q 1).val = (j 1).val := by
  unfold DotDims.rhsIdx
  rw [dif_neg (show ¬(1 : Fin S32x16.rank) ∈ dot_S5000x32_S32x16_S5000x16_1_0_0_1_n_n.rhsBatch by decide),
    dif_pos (show (1 : Fin S32x16.rank) ∈ dot_S5000x32_S32x16_S5000x16_1_0_0_1_n_n.rhsNonContracting by decide)]
  rfl

/-- What the body stores, at row `p` and column `q` of the block: row `p` of the aggregated block scaled by the first
    column block's entry `p`, plus the bias row, rectified at zero, scaled by the second column block's entry `p`,
    times column `q` of the weights. -/
theorem body1_apply (x0 : Vec Ideal S5000x32 .f32) (x1 : Vec Ideal S5000x1 .f32) (x2 : Vec Ideal S1x32 .f32)
    (x3 : Vec Ideal S5000x1 .f32) (x4 : Vec Ideal S32x16 .f32) (p : Fin 5000) (q : Fin 16) :
    k1_pay1 x0 x1 x2 x3 x4 (ix2 p q)
      = ∑ k : Fin 32, (max (x0 (ix2 p k) * x1 (ix2 p (0 : Fin 1)) + x2 (ix2 (0 : Fin 1) k)) (Ideal.ofBits .f32 0x00000000#32)
          * x3 (ix2 p (0 : Fin 1))) * x4 (ix2 k q) := by
  unfold k1_pay1
  refine (Cert.LibRowOps.matmul_zero_apply dot_S5000x32_S32x16_S5000x16_1_0_0_1_n_n none _ _ rfl rfl
    prod1_lhs_row prod1_lhs_col prod1_rhs_row prod1_rhs_col p q).trans ?_
  refine Finset.sum_congr rfl fun k _ => ?_
  rw [truncf_apply, truncf_apply, mulf_apply, maximumf_apply, addf_apply, mulf_apply, broadcast_apply]
  simp only [shapeCast_self]
  rw [Cert.LibColumn.broadcastTo_a1_ab_apply, Cert.LibColumn.broadcastTo_a1_ab_apply, broadcastTo_1b_ab_apply]
  rfl

/-! ## Where each window's block sits -/

theorem noOffset2 : (![0, 0] : Fin 2 → Nat) = fun _ => 0 := funext fun a => by fin_cases a <;> rfl

/-- The index maps over the grid: at point `t` the rows' windows (the aggregated features, the two scaling columns, the
    result) are at row block `t`, column block 0; the bias row's and the weights' windows are their whole arrays. -/
theorem blocks1_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated features' block at point `t`: entry `(p, k)` of the block is entry `(5000 t + p, k)` of the array. -/
theorem aggregated1_block (c : Dev nD) (t : Fin cfg1.N) (p : Fin 5000) (k : Fin 32) (r : Fin 100000)
    (hr : r.val = t.val * 5000 + p.val) :
    (iblk1 V c 0 t : Vec Ideal S5000x32 .f32) (ix2 p k) = (V c main_v28 : S100000x32.Idx → Elt Ideal .f32) (ix2 r k) := by
  obtain ⟨e0, e1, -⟩ := blocks1_at t
  unfold iblk1
  rw [View.read_apply]
  show V c main_v28 _ = V c main_v28 _
  congr 1
  funext a
  apply Fin.ext
  match a with
  | ⟨0, _⟩ => show win1_0.index t 0 * 5000 + 1 * p.val = r.val; rw [e0, hr]; omega
  | ⟨1, _⟩ => show win1_0.index t 1 * 32 + 1 * k.val = k.val; rw [e1]; omega

/-- The inner scaling column's block at point `t`: entry `(p, 0)` of the block is entry `(5000 t + p, 0)` of the column. -/
theorem innerScale1_block (c : Dev nD) (t : Fin cfg1.N) (p : Fin 5000) (u : Fin 1) (r : Fin 100000)
    (hr : r.val = t.val * 5000 + p.val) :
    (iblk1 V c 1 t : Vec Ideal S5000x1 .f32) (ix2 p u) = (V c main_v14 : S100000x1.Idx → Elt Ideal .f32) (ix2 r u) := by
  obtain ⟨-, -, e0, e1, -⟩ := blocks1_at t
  unfold iblk1
  rw [View.read_apply]
  show V c main_v14 _ = V c main_v14 _
  congr 1
  funext a
  apply Fin.ext
  match a with
  | ⟨0, _⟩ => show win1_1.index t 0 * 5000 + 1 * p.val = r.val; rw [e0, hr]; omega
  | ⟨1, _⟩ => show win1_1.index t 1 * 1 + 1 * u.val = u.val; rw [e1]; omega

/-- The bias row's block at any point is the whole row. -/
theorem bias1_block (c : Dev nD) (t : Fin cfg1.N) (u : Fin 1) (k : Fin 32) :
    (iblk1 V c 2 t : Vec Ideal S1x32 .f32) (ix2 u k) = (V c main_v29 : S1x32.Idx → Elt Ideal .f32) (ix2 u k) := by
  obtain ⟨-, -, -, -, e0, e1, -⟩ := blocks1_at t
  unfold iblk1
  rw [View.read_apply]
  show V c main_v29 _ = V c main_v29 _
  congr 1
  funext a
  apply Fin.ext
  match a with
  | ⟨0, _⟩ => show win1_2.index t 0 * 1 + 1 * u.val = u.val; rw [e0]; omega
  | ⟨1, _⟩ => show win1_2.index t 1 * 32 + 1 * k.val = k.val; rw [e1]; omega

/-- The outer scaling column's block at point `t`: entry `(p, 0)` of the block is entry `(5000 t + p, 0)` of the column. -/
theorem outerScale1_block (c : Dev nD) (t : Fin cfg1.N) (p : Fin 5000) (u : Fin 1) (r : Fin 100000)
    (hr : r.val = t.val * 5000 + p.val) :
    (iblk1 V c 3 t : Vec Ideal S5000x1 .f32) (ix2 p u) = (V c main_v11 : S100000x1.Idx → Elt Ideal .f32) (ix2 r u) := by
  obtain ⟨-, -, -, -, -, -, e0, e1, -⟩ := blocks1_at t
  unfold iblk1
  rw [View.read_apply]
  show V c main_v11 _ = V c main_v11 _
  congr 1
  funext a
  apply Fin.ext
  match a with
  | ⟨0, _⟩ => show win1_3.index t 0 * 5000 + 1 * p.val = r.val; rw [e0, hr]; omega
  | ⟨1, _⟩ => show win1_3.index t 1 * 1 + 1 * u.val = u.val; rw [e1]; omega

/-- The weights' block at any point is the whole weight matrix. -/
theorem weights1_block (c : Dev nD) (t : Fin cfg1.N) (k : Fin 32) (q : Fin 16) :
    (iblk1 V c 4 t : Vec Ideal S32x16 .f32) (ix2 k q) = (V c main_arg6 : S32x16.Idx → Elt Ideal .f32) (ix2 k q) := by
  obtain ⟨-, -, -, -, -, -, -, -, e0, e1, -⟩ := blocks1_at t
  unfold iblk1
  rw [View.read_apply]
  show V c main_arg6 _ = V c main_arg6 _
  congr 1
  funext a
  apply Fin.ext
  match a with
  | ⟨0, _⟩ => show win1_4.index t 0 * 32 + 1 * k.val = k.val; rw [e0]; omega
  | ⟨1, _⟩ => show win1_4.index t 1 * 16 + 1 * q.val = q.val; rw [e1]; omega

/-! ## What a point writes back, and the whole array -/

/-- The second layer's dense piece read at row `r`, column `q`: the rectified hidden row `r`, scaled, times column `q`
    of the weights. -/
theorem layer2_at {d : ℕ} (a : FVec Ideal ⟨2, ![100000, 32]⟩ .f32) (s : FVec Ideal ⟨2, ![100000, 1]⟩ .f32)
    (b : FVec Ideal ⟨2, ![1, 32]⟩ .f32) (s' : FVec Ideal ⟨2, ![100000, 1]⟩ .f32) (w : FVec Ideal ⟨2, ![32, d]⟩ .f32)
    (r : Fin 100000) (q : Fin d) :
    scaleThenProduct (hidden a s b) s' w (ix2 r q)
      = ∑ k : Fin 32, (max (a (ix2 r k) * s (ix2 r (0 : Fin 1)) + b (ix2 (0 : Fin 1) k)) (Ideal.ofBits .f32 0x00000000#32)
          * s' (ix2 r (0 : Fin 1))) * w (ix2 k q) := rfl

/-- What point `t` writes back is block `t` of the second layer's dense piece of the region's input arrays. -/
theorem flushed1_block (c : Dev nD) (t : Fin cfg1.N) :
    (dat1 (F := Ideal) V c).flushed 5 t
      = ((cfg1.win 5).blk t).view.read (Elt Ideal)
          (scaleThenProduct (hidden (V c main_v28) (V c main_v14) (V c main_v29)) (V c main_v11) (V c main_arg6)) := by
  show (cfg1.win 5).cut (grid1.coords t) ((dat1 V c).after 5 t) = _
  rw [after1_5]
  unfold out1_5
  rw [View.canon_unit_zero noOffset2]
  simp only [View.ld_unit_zero (S := S5000x32) noOffset2, View.ld_unit_zero (S := S5000x1) noOffset2,
    View.ld_unit_zero (S := S1x32) noOffset2, View.ld_unit_zero (S := S32x16) noOffset2]
  have hN : t.val < 20 := Nat.lt_of_lt_of_eq t.isLt N_1
  obtain ⟨-, -, -, -, -, -, -, -, -, -, e0, e1⟩ := blocks1_at t
  funext j
  obtain ⟨p, q, rfl⟩ : ∃ (p : Fin 5000) (q : Fin 16), j = ix2 p q := ⟨j 0, j 1, eq_ix2 j⟩
  have hr : t.val * 5000 + p.val < 100000 := by have := p.isLt; omega
  have hemb : ((cfg1.win 5).blk t).view.emb (ix2 p q)
      = (ix2 (⟨t.val * 5000 + p.val, hr⟩ : Fin 100000) q : S100000x16.Idx) := by
    funext a
    apply Fin.ext
    match a with
    | ⟨0, _⟩ => show win1_5.index t 0 * 5000 + 1 * p.val = t.val * 5000 + p.val; rw [e0]; omega
    | ⟨1, _⟩ => show win1_5.index t 1 * 16 + 1 * q.val = q.val; rw [e1]; omega
  show k1_pay1 (iblk1 V c 0 t) (iblk1 V c 1 t) (iblk1 V c 2 t) (iblk1 V c 3 t) (iblk1 V c 4 t) (ix2 p q)
    = scaleThenProduct (hidden (V c main_v28) (V c main_v14) (V c main_v29)) (V c main_v11) (V c main_arg6)
        (((cfg1.win 5).blk t).view.emb (ix2 p q))
  rw [hemb]
  refine (body1_apply (iblk1 V c 0 t) (iblk1 V c 1 t) (iblk1 V c 2 t) (iblk1 V c 3 t) (iblk1 V c 4 t) p q).trans ?_
  refine Eq.trans ?_ (layer2_at _ _ _ _ _ _ _).symm
  refine Finset.sum_congr rfl fun k _ => ?_
  rw [aggregated1_block V c t p k ⟨t.val * 5000 + p.val, hr⟩ rfl, innerScale1_block V c t p 0 ⟨t.val * 5000 + p.val, hr⟩ rfl,
    bias1_block V c t 0 k, outerScale1_block V c t p 0 ⟨t.val * 5000 + p.val, hr⟩ rfl, weights1_block V c t k q]

/-- An index of the result array is in point `t`'s block iff each coordinate is in the block's range on its axis. -/
theorem mem_block1 (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v30).slice (win1_5.rect t)).set ↔ _
  rw [View.set_slice_whole, Rect.mem_set_unit]
  exact Iff.rfl

/-- Every row is in the block of the point numbered by the row's quotient by 5000. -/
theorem cover1 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 20 := N_1
  refine ⟨⟨(i 0).val / 5000, by rw [hN]; omega⟩, flush1_5 _, ?_⟩
  obtain ⟨-, -, -, -, -, -, -, -, -, -, e0, e1⟩ := blocks1_at ⟨(i 0).val / 5000, by rw [hN]; omega⟩
  rw [mem_block1]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 16 ≤ (i 1).val ∧ (i 1).val < win1_5.index _ (1 : Fin 2) * 16 + 16
    rw [e1]; omega

/-- The second region's result array after its run: the rectified hidden layer of its inputs, its rows scaled by the
    outer scaling column, times the second layer's weights. -/
theorem region1_array (c : Dev nD) :
    (dat1 (F := Ideal) V c).arrAt 5 cfg1.N
      = scaleThenProduct (hidden (V c main_v28) (V c main_v14) (V c main_v29)) (V c main_v11) (V c main_arg6) :=
  (dat1 (F := Ideal) V c).arrAt_eq_of_cover 5 _ (fun t _ => flushed1_block V c t) cover1

end Cert.KernelIdeal.RegionValue

end
-- ==== Proof.Region2.lean ====
/-
  The last row-local piece of the graph convolution, on the whole array.

  The third grid region walks the 100000 rows in 20 blocks of 5000.  At block `t` it reads rows
  `5000 t … 5000 t + 4999` of the aggregated features `a` (16 columns) and of the in-degree column `s`, and the
  whole bias row `b`; it writes back, for a row `p` of the block and a column `c`, `a(p,c) · s(p,0) + b(0,c)`.
  Every row `r` lies in exactly the block `r / 5000`, so the blocks written back fill the array, and the array
  ends holding `scaleAddBias a s b`: the same function of `a`, `s`, `b` at every entry.
-/
import proofs.«171198_j12876311953783_1_alg».proof.Proof.Gen.KernelIdeal.Frame
import proofs.«171198_j12876311953783_1_alg».proof.Proof.Spec
import proofs.«171198_j12876311953783_1_alg».proof.Proof.LibColumn
import Idealize.ShloMosaic.Lib.Pipeline.Value
import Idealize.ShloMosaic.Lib.ValueLayout

noncomputable section

namespace Cert.KernelIdeal.RegionValue

open Idealize.ShloMosaic Idealize.ShloMosaic.TcCoe Idealize.ShloMosaic.Pipeline Idealize.SL.Sem
open Idealize.ShloMosaic.ValueIdx
open Cert.KernelIdeal Cert.KernelIdeal.Gen Cert.GcnSpec

variable (V : (c : Dev nD) → (b : Ref sig .tc) → Buf (Elt Ideal) ((c : Thread nD τ).loc b))

/-- The body reads and writes its blocks whole: every rectangle starts at offset `(0, 0)`. -/
theorem region2_offsets_zero : (![0, 0] : Fin 2 → Nat) = fun _ => 0 := funext fun a => by fin_cases a <;> rfl

/-- The body's arithmetic at row `p`, column `q` of a block: the feature times the row's scale, plus the column's bias. -/
theorem region2_payload_apply (x0 : Vec Ideal S5000x16 .f32) (x1 : Vec Ideal S5000x1 .f32) (x2 : Vec Ideal S1x16 .f32)
    (p : Fin 5000) (q : Fin 16) :
    k2_pay1 x0 x1 x2 (ix2 p q) = x0 (ix2 p q) * x1 (ix2 p (0 : Fin 1)) + x2 (ix2 (0 : Fin 1) q) := by
  unfold Gen.k2_pay1
  rw [addf_apply, mulf_apply, shapeCast_self, shapeCast_self, shapeCast_self,
    Cert.LibColumn.broadcastTo_a1_ab_apply, broadcastTo_1b_ab_apply]

/-- Which block each window holds at grid point `t`: block `t` of the rows for the features, the scale column and
    the result, the one block of the bias row; always the one block of columns. -/
theorem region2_block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has 20 points. -/
theorem region2_point_lt (t : Fin cfg2.N) : t.val < 20 := lt_of_lt_of_eq t.isLt N_2

/-- The feature block at point `t` is rows `5000 t … 5000 t + 4999` of the feature array. -/
theorem region2_features_block (c : Dev nD) (t : Fin cfg2.N) (p : Fin 5000) (q : Fin 16) (r : Fin 100000)
    (hr : r.val = t.val * 5000 + p.val) :
    (iblk2 V c 0 t : Vec Ideal S5000x16 .f32) (ix2 p q) = (V c main_v43 : S100000x16.Idx → Elt Ideal .f32) (ix2 r q) := by
  obtain ⟨e0, e1, -⟩ := region2_block_indices t
  unfold iblk2
  rw [View.read_apply]
  show V c main_v43 _ = V c main_v43 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 16 + 1 * q.val = q.val; rw [e1]; omega

/-- The scale block at point `t` is rows `5000 t … 5000 t + 4999` of the scale column. -/
theorem region2_scale_block (c : Dev nD) (t : Fin cfg2.N) (p : Fin 5000) (r : Fin 100000)
    (hr : r.val = t.val * 5000 + p.val) :
    (iblk2 V c 1 t : Vec Ideal S5000x1 .f32) (ix2 p (0 : Fin 1)) = (V c main_v14 : S100000x1.Idx → Elt Ideal .f32) (ix2 r (0 : Fin 1)) := by
  obtain ⟨-, -, e0, e1, -⟩ := region2_block_indices t
  unfold iblk2
  rw [View.read_apply]
  show V c main_v14 _ = V c main_v14 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 1 + 1 * 0 = 0; rw [e1]

/-- The bias block at every point is the whole bias row. -/
theorem region2_bias_block (c : Dev nD) (t : Fin cfg2.N) (q : Fin 16) :
    (iblk2 V c 2 t : Vec Ideal S1x16 .f32) (ix2 (0 : Fin 1) q) = (V c main_v44 : S1x16.Idx → Elt Ideal .f32) (ix2 (0 : Fin 1) q) := by
  obtain ⟨-, -, -, -, e0, e1, -⟩ := region2_block_indices t
  unfold iblk2
  rw [View.read_apply]
  show V c main_v44 _ = V c main_v44 _
  congr 1
  funext a
  apply Fin.ext
  match a with
  | ⟨0, _⟩ => show win2_2.index t (0 : Fin 2) * 1 + 1 * 0 = 0; rw [e0]
  | ⟨1, _⟩ => show win2_2.index t (1 : Fin 2) * 16 + 1 * q.val = q.val; rw [e1]; omega

/-- Entry `(p, q)` of the result block at point `t` is entry `(5000 t + p, q)` of the result array. -/
theorem region2_result_coordinate (t : Fin cfg2.N) (p : Fin 5000) (q : Fin 16) (r : Fin 100000)
    (hr : r.val = t.val * 5000 + p.val) :
    ((cfg2.win 3).blk t).view.emb (ix2 p q) = (ix2 r q : S100000x16.Idx) := by
  obtain ⟨-, -, -, -, -, -, e0, e1⟩ := region2_block_indices t
  funext a
  apply Fin.ext
  match a with
  | ⟨0, _⟩ => show win2_3.index t (0 : Fin 2) * 5000 + 1 * p.val = r.val; rw [e0, hr]; omega
  | ⟨1, _⟩ => show win2_3.index t (1 : Fin 2) * 16 + 1 * q.val = q.val; rw [e1]; omega

/-- What point `t` writes back is block `t` of `scaleAddBias` of the three input arrays. -/
theorem region2_flushed (c : Dev nD) (t : Fin cfg2.N) :
    (dat2 V c).flushed 3 t
      = ((cfg2.win 3).blk t).view.read (Elt Ideal) (scaleAddBias (V c main_v43) (V c main_v14) (V c main_v44)) := by
  show (cfg2.win 3).cut (grid2.coords t) ((dat2 V c).after 3 t) = _
  rw [after2_3]
  unfold out2_3
  rw [View.canon_unit_zero region2_offsets_zero]
  simp only [View.ld_unit_zero (S := S5000x16) region2_offsets_zero, View.ld_unit_zero (S := S5000x1) region2_offsets_zero,
    View.ld_unit_zero (S := S1x16) region2_offsets_zero]
  funext j
  obtain ⟨p, q, rfl⟩ : ∃ (p : Fin 5000) (q : Fin 16), j = ix2 p q := ⟨j 0, j 1, eq_ix2 j⟩
  have ht := region2_point_lt t
  have hlt : t.val * 5000 + p.val < 100000 := by have := p.isLt; omega
  show k2_pay1 (iblk2 V c 0 t) (iblk2 V c 1 t) (iblk2 V c 2 t) (ix2 p q)
    = scaleAddBias (V c main_v43) (V c main_v14) (V c main_v44) (((cfg2.win 3).blk t).view.emb (ix2 p q))
  rw [region2_result_coordinate t p q ⟨_, hlt⟩ rfl]
  refine (region2_payload_apply _ _ _ p q).trans ?_
  rw [region2_features_block V c t p q ⟨_, hlt⟩ rfl, region2_scale_block V c t p ⟨_, hlt⟩ rfl, region2_bias_block V c t q]
  rfl

/-- A row is in point `t`'s result block iff each of its coordinates is in the block's range. -/
theorem region2_mem_block (t : Fin cfg2.N) (i : S100000x16.Idx) :
    i ∈ ((cfg2.win 3).blk t).view.set ↔ ∀ a : Fin 2, win2_3.index t a * S5000x16.size a ≤ (i a).val
      ∧ (i a).val < win2_3.index t a * S5000x16.size a + S5000x16.size a := by
  show i ∈ ((View.whole main_v45).slice (win2_3.rect t)).set ↔ _
  rw [View.set_slice_whole, Rect.mem_set_unit]
  exact Iff.rfl

/-- Every entry of the result array is written: row `r` by the point `r / 5000`. -/
theorem region2_cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, lt_of_lt_of_eq (show (i 0).val / 5000 < 20 by omega) N_2.symm⟩, rfl⟩
  obtain ⟨-, -, -, -, -, -, e0, e1⟩ := region2_block_indices t
  refine ⟨t, flush2_3 t, ?_⟩
  rw [region2_mem_block]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 16 ≤ (i 1).val ∧ (i 1).val < win2_3.index t (1 : Fin 2) * 16 + 16
    rw [e1]; omega

/-- The result array after the region is `scaleAddBias` of the feature array, the scale column and the bias row. -/
theorem region2_array (c : Dev nD) :
    (dat2 (F := Ideal) V c).arrAt 3 cfg2.N = scaleAddBias (V c main_v43) (V c main_v14) (V c main_v44) :=
  (dat2 V c).arrAt_eq_of_cover 3 _ (fun t _ => region2_flushed V c t) region2_cover

end Cert.KernelIdeal.RegionValue

end
-- ==== Proof.KernelValue.lean ====
/-
  The idealized kernel program's run with its result as ONE function of the arguments.

  The run ends with the result array at the last boundary's contents (the run module); those contents are the
  two-layer network of the eight launch arrays, given what the three regions leave in their output arrays (the chain
  modules); and the three regions leave exactly the row-local functions the chain asks for (the region modules).
-/
import proofs.«171198_j12876311953783_1_alg».proof.Proof.KernelRun
import proofs.«171198_j12876311953783_1_alg».proof.Proof.Output
import proofs.«171198_j12876311953783_1_alg».proof.Proof.Region0
import proofs.«171198_j12876311953783_1_alg».proof.Proof.Region1
import proofs.«171198_j12876311953783_1_alg».proof.Proof.Region2

noncomputable section

namespace Cert.KernelIdeal.RunValue

open Idealize.ShloMosaic Idealize.ShloMosaic.TcCoe Idealize.SL.Sem
open Cert.KernelIdeal Cert.KernelIdeal.Gen Cert.GcnSpec

/-- Every weakly fair execution of the idealized kernel program terminates, nothing faulting, with the result array
    at `network` of the eight argument arrays and the arguments as launched. -/
theorem run_network (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun r h c => ⟨(h c).1.trans (Cert.KernelIdeal.Chain.result_network m ρ c
        Cert.KernelIdeal.RegionValue.region0_array Cert.KernelIdeal.RegionValue.region1_array
        Cert.KernelIdeal.RegionValue.region2_array), (h c).2⟩)
    (run (F := Ideal) m ρ)

end Cert.KernelIdeal.RunValue

end
-- ==== Proof.RefDense.lean ====
/-
  The reference program's dense operations, read entry by entry.

  Between two edge aggregations the reference computes with whole-array operations: a vector is laid out as a
  column or as a row by `broadcast_in_dim`; a column `s` is spread over the columns of a matrix and multiplied in,
  which scales row `p` by `s(p,0)`; `dot_general` contracts the 32 feature columns against a weight matrix; a bias
  row is spread over the rows and added; `maximum` with a zero array rectifies.  Read at an entry `(p, c)` these are
  the sums and products that `scaleThenProduct`, `scaleAddBias`, `hidden`, `column` and `row` name.
-/
import proofs.«171198_j12876311953783_1_alg».proof.Proof.Gen.ReferenceIdeal.Read
import proofs.«171198_j12876311953783_1_alg».proof.Proof.Spec

noncomputable section

namespace Cert.ReferenceIdeal.DenseValue

open Idealize.ShloMosaic Idealize.ShloMosaic.TcCoe Idealize.SL.Sem
open Idealize.ShloMosaic.ValueIdx
open Cert.ReferenceIdeal Cert.ReferenceIdeal.Gen Cert.GcnSpec

/-! ## Layouts: a vector as a column, as a row -/

/-- A vector of node values laid out as an `[N, 1]` column: entry `(p, 0)` is the vector's entry `p`. -/
theorem column_eq (n : FVec Ideal S100000 .f32) :
    broadcastInDim S100000x1 ![0] bcast_S100000_S100000x1_0 n = column n := by
  funext i
  show _ = n (ix1 (i 0))
  exact broadcastInDim_apply _ bcast_S100000_S100000x1_0 n i (ix1 (i 0)) (fun a => match a with
    | ⟨0, _⟩ => by show (i 0).val = if (100000 : Nat) = 1 then 0 else (i 0).val; rw [if_neg (by decide)])

/-- A vector of 32 values laid out as a `[1, 32]` row: entry `(0, c)` is the vector's entry `c`. -/
theorem row32_eq (b : FVec Ideal S32 .f32) :
    broadcastInDim S1x32 ![1] bcast_S32_S1x32_1 b = row b := by
  funext i
  show _ = b (ix1 (i 1))
  exact broadcastInDim_apply _ bcast_S32_S1x32_1 b i (ix1 (i 1)) (fun a => match a with
    | ⟨0, _⟩ => by show (i 1).val = if (32 : Nat) = 1 then 0 else (i 1).val; rw [if_neg (by decide)])

/-- A vector of 16 values laid out as a `[1, 16]` row: entry `(0, c)` is the vector's entry `c`. -/
theorem row16_eq (b : FVec Ideal S16 .f32) :
    broadcastInDim S1x16 ![1] bcast_S16_S1x16_1 b = row b := by
  funext i
  show _ = b (ix1 (i 1))
  exact broadcastInDim_apply _ bcast_S16_S1x16_1 b i (ix1 (i 1)) (fun a => match a with
    | ⟨0, _⟩ => by show (i 1).val = if (16 : Nat) = 1 then 0 else (i 1).val; rw [if_neg (by decide)])

/-! ## A column spread over columns, a row spread over rows, a zero spread everywhere -/

/-- The scale column spread over 32 columns: entry `(p, c)` is `s(p, 0)`. -/
theorem scale32_apply (s : FVec Ideal S100000x1 .f32) (i : S100000x32.Idx) :
    broadcastInDim S100000x32 ![0, 1] bcast_S100000x1_S100000x32_0_1 s i = s (ix2 (i 0) (0 : Fin 1)) :=
  broadcastInDim_apply _ bcast_S100000x1_S100000x32_0_1 s i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The scale column spread over 16 columns: entry `(p, c)` is `s(p, 0)`. -/
theorem scale16_apply (s : FVec Ideal S100000x1 .f32) (i : S100000x16.Idx) :
    broadcastInDim S100000x16 ![0, 1] bcast_S100000x1_S100000x16_0_1 s i = s (ix2 (i 0) (0 : Fin 1)) :=
  broadcastInDim_apply _ bcast_S100000x1_S100000x16_0_1 s i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The 32-entry bias row spread over the rows: entry `(p, c)` is `b(0, c)`. -/
theorem bias32_apply (b : FVec Ideal S1x32 .f32) (i : S100000x32.Idx) :
    broadcastInDim S100000x32 ![0, 1] bcast_S1x32_S100000x32_0_1 b i = b (ix2 (0 : Fin 1) (i 1)) :=
  broadcastInDim_apply _ bcast_S1x32_S100000x32_0_1 b i (ix2 (0 : Fin 1) (i 1)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

/-- The 16-entry bias row spread over the rows: entry `(p, c)` is `b(0, c)`. -/
theorem bias16_apply (b : FVec Ideal S1x16 .f32) (i : S100000x16.Idx) :
    broadcastInDim S100000x16 ![0, 1] bcast_S1x16_S100000x16_0_1 b i = b (ix2 (0 : Fin 1) (i 1)) :=
  broadcastInDim_apply _ bcast_S1x16_S100000x16_0_1 b i (ix2 (0 : Fin 1) (i 1)) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

/-- The zero scalar spread over the whole array: every entry is the zero word's value. -/
theorem zero32_apply (i : S100000x32.Idx) :
    broadcastInDim S100000x32 ![] bcast_S_S100000x32 (constant (F := Ideal) S_ .f32 0x00000000#32) i
      = Ideal.ofBits .f32 0x00000000#32 :=
  broadcastInDim_apply _ bcast_S_S100000x32 (constant (F := Ideal) S_ .f32 0x00000000#32) i (fun a => a.elim0)
    (fun a => a.elim0)

/-! ## The two matrix products -/

/-- The product with the `[32, 32]` weights: entry `(p, c)` is the sum over `k` of `y(p, k) · w(k, c)`. -/
theorem product32_apply (y : FVec Ideal S100000x32 .f32) (w : FVec Ideal S32x32 .f32) (i : S100000x32.Idx) :
    Host.dotGeneral (F := Ideal) dot_S100000x32_S32x32_S100000x32_1_0_0_1_n_n none y w i
      = ∑ k : Fin 32, y (ix2 (i 0) k) * w (ix2 k (i 1)) := by
  simp only [Host.dotGeneral]
  rw [Ideal.dotGeneral_apply, ← Equiv.sum_comp (contrEquiv1 dot_S100000x32_S32x32_S100000x32_1_0_0_1_n_n 32 rfl rfl).symm]
  refine Finset.sum_congr rfl fun k _ => ?_
  have hk := contrEquiv1_symm_val dot_S100000x32_S32x32_S100000x32_1_0_0_1_n_n 32 rfl rfl k
  have el : dot_S100000x32_S32x32_S100000x32_1_0_0_1_n_n.lhsIdx i
      ((contrEquiv1 dot_S100000x32_S32x32_S100000x32_1_0_0_1_n_n 32 rfl rfl).symm k) = ix2 (i 0) k :=
    funext fun a => Fin.ext (by
      match a with
      | ⟨0, _⟩ => exact Read.lhs_main_v16_0 _ _
      | ⟨1, _⟩ => exact (Read.lhs_main_v16_1 _ _).trans hk)
  have er : dot_S100000x32_S32x32_S100000x32_1_0_0_1_n_n.rhsIdx i
      ((contrEquiv1 dot_S100000x32_S32x32_S100000x32_1_0_0_1_n_n 32 rfl rfl).symm k) = ix2 k (i 1) :=
    funext fun a => Fin.ext (by
      match a with
      | ⟨0, _⟩ => exact (Read.rhs_main_v16_0 _ _).trans hk
      | ⟨1, _⟩ => exact Read.rhs_main_v16_1 _ _)
  rw [el, er]
  rfl

/-- The product with the `[32, 16]` weights: entry `(p, c)` is the sum over `k` of `y(p, k) · w(k, c)`. -/
theorem product16_apply (y : FVec Ideal S100000x32 .f32) (w : FVec Ideal S32x16 .f32) (i : S100000x16.Idx) :
    Host.dotGeneral (F := Ideal) dot_S100000x32_S32x16_S100000x16_1_0_0_1_n_n none y w i
      = ∑ k : Fin 32, y (ix2 (i 0) k) * w (ix2 k (i 1)) := by
  simp only [Host.dotGeneral]
  rw [Ideal.dotGeneral_apply, ← Equiv.sum_comp (contrEquiv1 dot_S100000x32_S32x16_S100000x16_1_0_0_1_n_n 32 rfl rfl).symm]
  refine Finset.sum_congr rfl fun k _ => ?_
  have hk := contrEquiv1_symm_val dot_S100000x32_S32x16_S100000x16_1_0_0_1_n_n 32 rfl rfl k
  have el : dot_S100000x32_S32x16_S100000x16_1_0_0_1_n_n.lhsIdx i
      ((contrEquiv1 dot_S100000x32_S32x16_S100000x16_1_0_0_1_n_n 32 rfl rfl).symm k) = ix2 (i 0) k :=
    funext fun a => Fin.ext (by
      match a with
      | ⟨0, _⟩ => exact Read.lhs_main_v40_0 _ _
      | ⟨1, _⟩ => exact (Read.lhs_main_v40_1 _ _).trans hk)
  have er : dot_S100000x32_S32x16_S100000x16_1_0_0_1_n_n.rhsIdx i
      ((contrEquiv1 dot_S100000x32_S32x16_S100000x16_1_0_0_1_n_n 32 rfl rfl).symm k) = ix2 k (i 1) :=
    funext fun a => Fin.ext (by
      match a with
      | ⟨0, _⟩ => exact (Read.rhs_main_v40_0 _ _).trans hk
      | ⟨1, _⟩ => exact Read.rhs_main_v40_1 _ _)
  rw [el, er]
  rfl

/-! ## The dense pieces -/

/-- The first layer's product: rows of `x` scaled by `s`, times the `[32, 32]` weights. -/
theorem layer1_eq (x : FVec Ideal S100000x32 .f32) (s : FVec Ideal S100000x1 .f32) (w : FVec Ideal S32x32 .f32) :
    Host.dotGeneral (F := Ideal) dot_S100000x32_S32x32_S100000x32_1_0_0_1_n_n none
      (mulf x (broadcastInDim S100000x32 ![0, 1] bcast_S100000x1_S100000x32_0_1 s)) w = scaleThenProduct x s w := by
  funext i
  rw [product32_apply]
  refine Finset.sum_congr rfl fun k _ => ?_
  rw [mulf_apply, scale32_apply]

/-- The second layer's product: rows of `x` scaled by `s`, times the `[32, 16]` weights. -/
theorem layer2_eq (x : FVec Ideal S100000x32 .f32) (s : FVec Ideal S100000x1 .f32) (w : FVec Ideal S32x16 .f32) :
    Host.dotGeneral (F := Ideal) dot_S100000x32_S32x16_S100000x16_1_0_0_1_n_n none
      (mulf x (broadcastInDim S100000x32 ![0, 1] bcast_S100000x1_S100000x32_0_1 s)) w = scaleThenProduct x s w := by
  funext i
  rw [product16_apply]
  refine Finset.sum_congr rfl fun k _ => ?_
  rw [mulf_apply, scale32_apply]

/-- The hidden layer: rows scaled, the bias row added, negative entries replaced by zero. -/
theorem hidden_eq (a : FVec Ideal S100000x32 .f32) (s : FVec Ideal S100000x1 .f32) (b : FVec Ideal S1x32 .f32) :
    maximumf (addf (mulf a (broadcastInDim S100000x32 ![0, 1] bcast_S100000x1_S100000x32_0_1 s))
        (broadcastInDim S100000x32 ![0, 1] bcast_S1x32_S100000x32_0_1 b))
      (broadcastInDim S100000x32 ![] bcast_S_S100000x32 (constant (F := Ideal) S_ .f32 0x00000000#32)) = hidden a s b := by
  funext i
  rw [maximumf_apply, addf_apply, mulf_apply, scale32_apply, bias32_apply, zero32_apply]
  rfl

/-- The output layer: rows scaled, the bias row added. -/
theorem out_eq (a : FVec Ideal S100000x16 .f32) (s : FVec Ideal S100000x1 .f32) (b : FVec Ideal S1x16 .f32) :
    addf (mulf a (broadcastInDim S100000x16 ![0, 1] bcast_S100000x1_S100000x16_0_1 s))
      (broadcastInDim S100000x16 ![0, 1] bcast_S1x16_S100000x16_0_1 b) = scaleAddBias a s b := by
  funext i
  rw [addf_apply, mulf_apply, scale16_apply, bias16_apply]
  rfl

end Cert.ReferenceIdeal.DenseValue

end
-- ==== Proof.RefNetwork.lean ====
/-
  The reference program's result is the two-layer network of its eight arguments.

  The reference computes the network with whole-array host operations.  Its sparse steps — counting degrees by a
  scatter-add of ones, gathering source rows, weighting them, scatter-adding them at their destinations — are the
  very operations by which `degreeNorm`, `aggregate32` and `aggregate16` are defined; its dense steps are the ones
  read entry by entry as `scaleThenProduct`, `hidden`, `scaleAddBias`, `column` and `row`.  So the result term, read
  from the inside out, is `network` of the arguments.  The two programs name the same scatter and gather
  dimension numbers separately; they are equal records.
-/
import proofs.«171198_j12876311953783_1_alg».proof.Proof.Gen.ReferenceIdeal.Read
import proofs.«171198_j12876311953783_1_alg».proof.Proof.RefDense
import proofs.«171198_j12876311953783_1_alg».proof.Proof.Graph

noncomputable section

namespace Cert.ReferenceIdeal.DenseValue

open Idealize.ShloMosaic Idealize.ShloMosaic.TcCoe Idealize.SL.Sem
open Idealize.ShloMosaic.ValueIdx
open Cert.ReferenceIdeal Cert.ReferenceIdeal.Gen Cert.GcnSpec

/-! ## The two programs' dimension numbers are the same records -/

theorem degreeScatter_eq :
    Cert.KernelIdeal.scatter_S100000_S1600000x1_S1600000_n_0_0_1 = scatter_S100000_S1600000x1_S1600000_n_0_0_1 := rfl

theorem scatter32_eq :
    Cert.KernelIdeal.scatter_S100000x32_S1600000x1_S1600000x32_1_0_0_1 = scatter_S100000x32_S1600000x1_S1600000x32_1_0_0_1 := rfl

theorem scatter16_eq :
    Cert.KernelIdeal.scatter_S100000x16_S1600000x1_S1600000x16_1_0_0_1 = scatter_S100000x16_S1600000x1_S1600000x16_1_0_0_1 := rfl

theorem gather32_eq :
    Cert.KernelIdeal.gather_S100000x32_S1600000x1_S1600000x32_1_0_n_n_0_1_132
      = gather_S100000x32_S1600000x1_S1600000x32_1_0_n_n_0_1_132 := rfl

theorem gather16_eq :
    Cert.KernelIdeal.gather_S100000x16_S1600000x1_S1600000x16_1_0_n_n_0_1_116
      = gather_S100000x16_S1600000x1_S1600000x16_1_0_n_n_0_1_116 := rfl

/-! ## The sparse steps, in the reference's words -/

/-- An endpoint list as signed row indices: a negative index has `N` added. -/
theorem wrapIndex_eq (idx : (⟨S1600000, .i32⟩ : BufTy).Contents (Elt Ideal)) :
    broadcastInDim S1600000x1 ![0] bcast_S1600000_S1600000x1_0
      (select (cmpi .slt idx (broadcastInDim S1600000 ![] bcast_S_S1600000 (constantI S_ 32 0#32)))
        (addi idx (broadcastInDim S1600000 ![] bcast_S_S1600000 (constantI S_ 32 100000#32))) idx) = wrapIndex idx := by
  unfold Cert.GcnSpec.wrapIndex
  rfl

set_option maxHeartbeats 400000 in
/-- `(max 1 degree)^(-1/2)` per node. -/
theorem degreeNorm_eq (idx : (⟨S1600000, .i32⟩ : BufTy).Contents (Elt Ideal)) :
    Host.powf (F := Ideal)
      (maximumf (broadcastInDim S100000 ![] bcast_S_S100000 (id (constant (F := Ideal) S_ .f32 0x3F800000#32)))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 idx)
          (broadcastInDim S1600000 ![] bcast_S_S1600000 (constant (F := Ideal) S_ .f32 0x3F800000#32))))
      (broadcastInDim S100000 ![] bcast_S_S100000 (constant (F := Ideal) S_ .f32 0xBF000000#32)) = degreeNorm idx := by
  unfold Cert.GcnSpec.degreeNorm
  rw [degreeScatter_eq]

set_option maxHeartbeats 400000 in
/-- The weighted edge aggregation of 32-wide rows. -/
theorem aggregate32_eq (h : FVec Ideal S100000x32 .f32) (src dst : (⟨S1600000, .i32⟩ : BufTy).Contents (Elt Ideal))
    (ew : FVec Ideal S1600000 .f32) :
    Host.scatterAdd (F := Ideal) scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 dst)
      (mulf (Host.gather gather_S100000x32_S1600000x1_S1600000x32_1_0_n_n_0_1_132 h (wrapIndex src))
        (broadcastInDim S1600000x32 ![0, 1] bcast_S1600000x1_S1600000x32_0_1
          (broadcastInDim S1600000x1 ![0] bcast_S1600000_S1600000x1_0 ew))) = aggregate32 h src dst ew := by
  unfold Cert.GcnSpec.aggregate32
  rw [scatter32_eq, gather32_eq]

set_option maxHeartbeats 400000 in
/-- The weighted edge aggregation of 16-wide rows. -/
theorem aggregate16_eq (h : FVec Ideal S100000x16 .f32) (src dst : (⟨S1600000, .i32⟩ : BufTy).Contents (Elt Ideal))
    (ew : FVec Ideal S1600000 .f32) :
    Host.scatterAdd (F := Ideal) scatter_S100000x16_S1600000x1_S1600000x16_1_0_0_1
      (broadcastInDim S100000x16 ![] bcast_S_S100000x16 (constant (F := Ideal) S_ .f32 0x00000000#32))
      (broadcastInDim S1600000x1 ![0] bcast_S1600000_S1600000x1_0 dst)
      (mulf (Host.gather gather_S100000x16_S1600000x1_S1600000x16_1_0_n_n_0_1_116 h (wrapIndex src))
        (broadcastInDim S1600000x16 ![0, 1] bcast_S1600000x1_S1600000x16_0_1
          (broadcastInDim S1600000x1 ![0] bcast_S1600000_S1600000x1_0 ew))) = aggregate16 h src dst ew := by
  unfold Cert.GcnSpec.aggregate16
  rw [scatter16_eq, gather16_eq]

/-! ## The result -/

set_option maxHeartbeats 400000 in
/-- The reference's result array is the network of the eight arguments. -/
theorem result_network (m : (ℓ : Loc nD τ sig) → Buf (Elt Ideal) ℓ) (c : Dev nD) :
    Cert.ReferenceIdeal.Value.res_main_v59 (F := Ideal) m c
      = Cert.GcnSpec.network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v59
  -- the eight arguments, each named as an array of its literal shape
  obtain ⟨x, hx⟩ : ∃ x : FVec Ideal S100000x32 .f32, m ((c.tc : Thread nD τ).loc main_arg0) = x := ⟨_, rfl⟩
  obtain ⟨src, hsrc⟩ : ∃ i : (⟨S1600000, .i32⟩ : BufTy).Contents (Elt Ideal), m ((c.tc : Thread nD τ).loc main_arg1) = i := ⟨_, rfl⟩
  obtain ⟨dst, hdst⟩ : ∃ i : (⟨S1600000, .i32⟩ : BufTy).Contents (Elt Ideal), m ((c.tc : Thread nD τ).loc main_arg2) = i := ⟨_, rfl⟩
  obtain ⟨ew, hew⟩ : ∃ e : FVec Ideal S1600000 .f32, m ((c.tc : Thread nD τ).loc main_arg3) = e := ⟨_, rfl⟩
  obtain ⟨w1, hw1⟩ : ∃ w : FVec Ideal S32x32 .f32, m ((c.tc : Thread nD τ).loc main_arg4) = w := ⟨_, rfl⟩
  obtain ⟨b1, hb1⟩ : ∃ b : FVec Ideal S32 .f32, m ((c.tc : Thread nD τ).loc main_arg5) = b := ⟨_, rfl⟩
  obtain ⟨w2, hw2⟩ : ∃ w : FVec Ideal S32x16 .f32, m ((c.tc : Thread nD τ).loc main_arg6) = w := ⟨_, rfl⟩
  obtain ⟨b2, hb2⟩ : ∃ b : FVec Ideal S16 .f32, m ((c.tc : Thread nD τ).loc main_arg7) = b := ⟨_, rfl⟩
  rw [hx, hsrc, hdst, hew, hw1, hb1, hw2, hb2]
  -- inside out: the sparse steps and the dense pieces by their names
  rw [wrapIndex_eq src, degreeNorm_eq src, degreeNorm_eq dst,
    column_eq (degreeNorm src), column_eq (degreeNorm dst), row32_eq b1, row16_eq b2,
    layer1_eq x (column (degreeNorm src)) w1,
    aggregate32_eq _ src dst ew,
    hidden_eq _ (column (degreeNorm dst)) (row b1),
    layer2_eq _ (column (degreeNorm src)) w2,
    aggregate16_eq _ src dst ew,
    out_eq _ (column (degreeNorm dst)) (row b2)]
  unfold Cert.GcnSpec.network Cert.GcnSpec.layers
  rfl

end Cert.ReferenceIdeal.DenseValue

end
-- ==== Proof.lean ====
/-
  A two-layer graph convolution: the kernel program against its plain reference, on the extended reals.

  Both programs compute, for `N = 100000` nodes and 1.6 million weighted edges,
      out = A( relu( A( (X·diag s)·W₁ )·diag t + b₁ )·diag s·W₂ )·diag t + b₂ ,
  with `s`, `t` the (clipped) out- and in-degrees to the power -1/2 and `A` the weighted edge aggregation (a gather of
  rows along the edges, an edge weighting, a scatter-add).  The sparse steps — the degree counts and both
  aggregations — are the same host operations in both programs and are never opened.  The kernel program does the
  row-local steps in three grid regions over 5000-row blocks (scale and product; scale, bias, rectify, scale and
  product; scale and bias); the reference does them as whole-array host operations.  At the exact-real instance a
  change of float format is the identity and a product into a zero accumulator is a plain sum of products, so each
  region's output array and the reference's corresponding operations are one row-local function (`scaleThenProduct`,
  `hidden`, `scaleAddBias`), and both results are `network` of the eight arguments.  No law of the extended reals
  beyond that reading is used, so the finiteness of the inputs is never opened.

  * the three frames: the two kernel programs' generated frame theorems; the reference's run with its result dropped;
  * `preserves`: the idealization rewrote nothing, the conjunct is `True`;
  * `algebraic`: the idealized kernel's run ends at `network` of its arguments (Proof/KernelValue.lean), the
    reference's run ends at its composed term, which is `network` of its arguments (Proof/RefNetwork.lean), and the
    two argument lists agree.
-/
import proofs.«171198_j12876311953783_1_alg».proof.Defs
import proofs.«171198_j12876311953783_1_alg».proof.Proof.Gen.Kernel
import proofs.«171198_j12876311953783_1_alg».proof.Proof.Gen.Kernel.Skeleton
import proofs.«171198_j12876311953783_1_alg».proof.Proof.Gen.Kernel.Launch
import proofs.«171198_j12876311953783_1_alg».proof.Proof.Gen.Kernel.Points
import proofs.«171198_j12876311953783_1_alg».proof.Proof.Gen.Kernel.Frame
import proofs.«171198_j12876311953783_1_alg».proof.Proof.Gen.KernelIdeal
import proofs.«171198_j12876311953783_1_alg».proof.Proof.Gen.KernelIdeal.Skeleton
import proofs.«171198_j12876311953783_1_alg».proof.Proof.Gen.KernelIdeal.Launch
import proofs.«171198_j12876311953783_1_alg».proof.Proof.Gen.KernelIdeal.Points
import proofs.«171198_j12876311953783_1_alg».proof.Proof.Gen.KernelIdeal.Frame
import proofs.«171198_j12876311953783_1_alg».proof.Proof.Gen.ReferenceIdeal
import proofs.«171198_j12876311953783_1_alg».proof.Proof.Gen.Pre_finite_inputs
import proofs.«171198_j12876311953783_1_alg».proof.Proof.Gen.ReferenceIdeal.Run
import proofs.«171198_j12876311953783_1_alg».proof.Proof.Gen.ReferenceIdeal.Read
import proofs.«171198_j12876311953783_1_alg».proof.Proof.KernelValue
import proofs.«171198_j12876311953783_1_alg».proof.Proof.RefNetwork
import Idealize.ShloMosaic.Adequacy
import Idealize.ShloMosaic.Init

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    fun m ρ m' ρ' _ hagree =>
      ⟨fun c => Cert.GcnSpec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
        Cert.KernelIdeal.RunValue.run_network m ρ,
        (θ_run Cert.ReferenceIdeal.defs _ _).mono
          (fun _ h c => ⟨(h c).1.trans (by
              rw [Cert.ReferenceIdeal.DenseValue.result_network m' c, (hagree c).1, (hagree c).2.1, (hagree c).2.2.1,
                (hagree c).2.2.2.1, (hagree c).2.2.2.2.1, (hagree c).2.2.2.2.2.1, (hagree c).2.2.2.2.2.2.1,
                (hagree c).2.2.2.2.2.2.2]), (h c).2⟩)
          (Cert.ReferenceIdeal.Value.run (F := Ideal) m' ρ')⟩⟩

end Cert.Proof

end
